-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x200000x128 : Shape := ⟨3, ![1, 200000, 128]⟩
abbrev S384x128 : Shape := ⟨2, ![384, 128]⟩
abbrev S384 : Shape := ⟨1, ![384]⟩
abbrev S256x384 : Shape := ⟨2, ![256, 384]⟩
abbrev S256 : Shape := ⟨1, ![256]⟩
abbrev S128x256 : Shape := ⟨2, ![128, 256]⟩
abbrev S128 : Shape := ⟨1, ![128]⟩
abbrev S5x128 : Shape := ⟨2, ![5, 128]⟩
abbrev S5 : Shape := ⟨1, ![5]⟩
abbrev S_ : Shape := ⟨0, ![]⟩

class Facts : Prop where
  bcast_S_S1x200000x128 : S_.BroadcastsInDim S1x200000x128 (![] : Fin 0 → Fin S1x200000x128.rank)
  reducesTo_S1x200000x128_S_d0_1_2 : S1x200000x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S5x128 .f32) (main_arg8 : FVec F S5 .f32) (main_arg9 : FVec F S5 .f32) (main_v33 : IVec S_ 1) : IVec S_ 1 :=
  let main_v34 : FVec F S5x128 .f32 := Host.absf main_arg7
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_v44 : FVec F S5 .f32 := Host.absf main_arg9
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg4 : FVec F S256 .f32) (main_arg5 : FVec F S128x256 .f32) (main_arg6 : FVec F S128 .f32) (main_arg7 : FVec F S5x128 .f32) (main_arg8 : FVec F S5 .f32) (main_arg9 : FVec F S5 .f32) (main_v13 : IVec S_ 1) (main_v16 : IVec S256x384 1) : IVec S_ 1 :=
  let main_c_5 : IVec S_ 1 := constantI S_ 1 1#1
  let main_v17 : IVec S_ 1 := (fun x v => Host.reduce IntOp.andi x v reducesTo_S256x384_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S1x200000x128 .f32) (main_arg1 : FVec F S384x128 .f32) (main_arg2 : FVec F S384 .f32) (main_arg3 : FVec F S256x384 .f32) (main_arg4 : FVec F S256 .f32) (main_arg5 : FVec F S128x256 .f32) (main_arg6 : FVec F S128 .f32) (main_arg7 : FVec F S5x128 .f32) (main_arg8 : FVec F S5 .f32) (main_arg9 : FVec F S5 .f32) : IVec S_ 1 :=
  let main_v0 : FVec F S1x200000x128 .f32 := Host.absf main_arg0
  let main_cst : FVec F S_ .f32 := constant S_ .f32 0x7F800000#32
  let main_v1 : FVec F S1x200000x128 .f32 := broadcastInDim S1x200000x128 ![] bcast_S_S1x200000x128 main_cst
  let main_v2 : IVec S1x200000x128 1 := cmpf .olt main_v0 main_v1
  let main_c : IVec S_ 1 := constantI S_ 1 1#1
  let main_v3 : IVec S_ 1 := (fun x v => Host.reduce IntOp.andi x v reducesTo_S1x200000x128_S_d0_1_2 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S256x384 .f32 := Host.absf main_arg3
  let main_cst_4 : FVec F S_ .f32 := constant S_ .f32 0x7F800000#32
  let main_v15 : FVec F S256x384 .f32 := broadcastInDim S256x384 ![] bcast_S_S256x384 main_cst_4
  let main_v16 : IVec S256x384 1 := cmpf .olt main_v14 main_v15
  fn_part1 (F := F) main_arg4 main_arg5 main_arg6 main_arg7 main_arg8 main_arg9 main_v13 main_v16
-- ==== Kernel.lean ====
abbrev S1x200000x128 : Shape := ⟨3, ![1, 200000, 128]⟩
abbrev S384x128 : Shape := ⟨2, ![384, 128]⟩
abbrev S384 : Shape := ⟨1, ![384]⟩
abbrev S256x384 : Shape := ⟨2, ![256, 384]⟩
abbrev S256 : Shape := ⟨1, ![256]⟩
abbrev S128x256 : Shape := ⟨2, ![128, 256]⟩
abbrev S128 : Shape := ⟨1, ![128]⟩
abbrev S5x128 : Shape := ⟨2, ![5, 128]⟩
abbrev S5 : Shape := ⟨1, ![5]⟩
abbrev S200000x128 : Shape := ⟨2, ![200000, 128]⟩
abbrev S16x5 : Shape := ⟨2, ![16, 5]⟩
abbrev S4000x128 : Shape := ⟨2, ![4000, 128]⟩
abbrev S8x5 : Shape := ⟨2, ![8, 5]⟩
abbrev S1x5 : Shape := ⟨2, ![1, 5]⟩
abbrev S1000x128 : Shape := ⟨2, ![1000, 128]⟩
abbrev S1000x384 : Shape := ⟨2, ![1000, 384]⟩
abbrev S1x384 : Shape := ⟨2, ![1, 384]⟩
abbrev S1000x256 : Shape := ⟨2, ![1000, 256]⟩
abbrev S1x256 : Shape := ⟨2, ![1, 256]⟩
abbrev S1x128 : Shape := ⟨2, ![1, 128]⟩
abbrev S1000x5 : Shape := ⟨2, ![1000, 5]⟩

abbrev nBuf : Space → Nat
  | .hbm => 39
  | .vmem => 20
  | .smem => 0
  | _ => 0

abbrev bufTy : (tb : Table) → Fin (tcTables nBuf tb) → BufTy
  | .hbm, ⟨0, _⟩ => ⟨S1x200000x128, .f32⟩
  | .hbm, ⟨1, _⟩ => ⟨S384x128, .f32⟩
  | .hbm, ⟨2, _⟩ => ⟨S384, .f32⟩
  | .hbm, ⟨3, _⟩ => ⟨S256x384, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S5x128, .f32⟩
  | .hbm, ⟨8, _⟩ => ⟨S5, .f32⟩
  | .hbm, ⟨9, _⟩ => ⟨S5, .f32⟩
  | .hbm, ⟨10, _⟩ => ⟨S200000x128, .f32⟩
  | .hbm, ⟨11, _⟩ => ⟨S16x5, .f32⟩
  | .hbm, ⟨12, _⟩ => ⟨S16x5, .f32⟩
  | .hbm, ⟨13, _⟩ => ⟨S16x5, .f32⟩
  | .hbm, ⟨14, _⟩ => ⟨S1x5, .f32⟩
  | .hbm, ⟨15, _⟩ => ⟨S5, .f32⟩
  | .hbm, ⟨16, _⟩ => ⟨S1x5, .f32⟩
  | .hbm, ⟨17, _⟩ => ⟨S5, .f32⟩
  | .hbm, ⟨18, _⟩ => ⟨S1x5, .f32⟩
  | .hbm, ⟨19, _⟩ => ⟨S5, .f32⟩
  | .hbm, ⟨20, _⟩ => ⟨S1x5, .f32⟩
  | .hbm, ⟨21, _⟩ => ⟨S5, .f32⟩
  | .hbm, ⟨22, _⟩ => ⟨S1x5, .f32⟩
  | .hbm, ⟨23, _⟩ => ⟨S5, .f32⟩
  | .hbm, ⟨24, _⟩ => ⟨S1x5, .f32⟩
  | .hbm, ⟨25, _⟩ => ⟨S5, .f32⟩
  | .hbm, ⟨26, _⟩ => ⟨S5, .f32⟩
  | .hbm, ⟨27, _⟩ => ⟨S5, .f32⟩
  | .hbm, ⟨28, _⟩ => ⟨S5, .f32⟩
  | .hbm, ⟨29, _⟩ => ⟨S5, .f32⟩
  | .hbm, ⟨30, _⟩ => ⟨S5, .f32⟩
  | .hbm, ⟨31, _⟩ => ⟨S5, .f32⟩
  | .hbm, ⟨32, _⟩ => ⟨S5, .f32⟩
  | .hbm, ⟨33, _⟩ => ⟨S5, .f32⟩
  | .hbm, ⟨34, _⟩ => ⟨S5, .f32⟩
  | .hbm, ⟨35, _⟩ => ⟨S5, .f32⟩
  | .hbm, ⟨36, _⟩ => ⟨S5, .f32⟩
  | .hbm, ⟨37, _⟩ => ⟨S5, .f32⟩
  | .hbm, ⟨38, _⟩ => ⟨S1x5, .f32⟩
  | .local _ .vmem, ⟨0, _⟩ => ⟨S4000x128, .f32⟩
  | .local _ .vmem, ⟨1, _⟩ => ⟨S4000x128, .f32⟩
  | .local _ .vmem, ⟨2, _⟩ => ⟨S384x128, .f32⟩
  | .local _ .vmem, ⟨3, _⟩ => ⟨S384, .f32⟩
  | .local _ .vmem, ⟨4, _⟩ => ⟨S256x384, .f32⟩
  | .local _ .vmem, ⟨5, _⟩ => ⟨S256, .f32⟩
  | .local _ .vmem, ⟨6, _⟩ => ⟨S128x256, .f32⟩
  | .local _ .vmem, ⟨7, _⟩ => ⟨S128, .f32⟩
  | .local _ .vmem, ⟨8, _⟩ => ⟨S5x128, .f32⟩
  | .local _ .vmem, ⟨9, _⟩ => ⟨S5, .f32⟩
  | .local _ .vmem, ⟨10, _⟩ => ⟨S5, .f32⟩
  | .local _ .vmem, ⟨11, _⟩ => ⟨S8x5, .f32⟩
  | .local _ .vmem, ⟨12, _⟩ => ⟨S8x5, .f32⟩
  | .local _ .vmem, ⟨13, _⟩ => ⟨S8x5, .f32⟩
  | .local _ .vmem, ⟨14, _⟩ => ⟨S8x5, .f32⟩
  | .local _ .vmem, ⟨15, _⟩ => ⟨S8x5, .f32⟩
  | .local _ .vmem, ⟨16, _⟩ => ⟨S8x5, .f32⟩
  | .local _ .vmem, ⟨17, _⟩ => ⟨S1x5, .f32⟩
  | .local _ .vmem, ⟨18, _⟩ => ⟨S1x5, .f32⟩
  | .local _ .vmem, ⟨19, _⟩ => ⟨S1x5, .f32⟩
  | _, _ => ⟨S1x200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 25], ![false, false]⟩

@[reducible] def k0_t1_loop : Scf.Loop 32 :=
  let c0_i32_13 : BitVec 32 := 0#32
  let c4_i32 : BitVec 32 := 4#32
  let v16 : BitVec 32 := Scalar.addi c0_i32_13 c4_i32
  let c1_i32 : BitVec 32 := 1#32
  ⟨c0_i32_13, v16, c1_i32⟩
def k0_mult1 (k0_t1 : Fin k0_t1_loop.trips) : BitVec 32 :=
  let c0_i32_17 : BitVec 32 := 0#32
  let c0_i32_13 : BitVec 32 := 0#32
  let c1_i32 : BitVec 32 := 1#32
  let arg18 : BitVec 32 := Scf.iv c0_i32_13 c1_i32 k0_t1
  let c1_i32_16 : BitVec 32 := 1#32
  let v20 : BitVec 32 := Scalar.muli arg18 c1_i32_16
  let v21 : BitVec 32 := Scalar.addi c0_i32_17 v20
  let c1000_i32 : BitVec 32 := 1000#32
  let v22 : BitVec 32 := Scalar.muli v21 c1000_i32
  v22
def k0_off1 (k0_t1 : Fin k0_t1_loop.trips) : Fin 2 → Nat :=
  let c0_i32_17 : BitVec 32 := 0#32
  let c0_i32_13 : BitVec 32 := 0#32
  let c1_i32 : BitVec 32 := 1#32
  let arg18 : BitVec 32 := Scf.iv c0_i32_13 c1_i32 k0_t1
  let c1_i32_16 : BitVec 32 := 1#32
  let v20 : BitVec 32 := Scalar.muli arg18 c1_i32_16
  let v21 : BitVec 32 := Scalar.addi c0_i32_17 v20
  let c1000_i32 : BitVec 32 := 1000#32
  let v22 : BitVec 32 := Scalar.muli v21 c1000_i32
  let v23 : BitVec 32 := v22
  let v24 : Index := Scalar.indexCast v23
  let c0_18 : Index := 0#32
  ![v24.toNat, 0]
def k0_cond2 (i : grid0.Coords) : BitVec 1 :=
  let arg1 : BitVec 32 := BitVec.ofNat 32 (i 1).val
  let c24_i32 : BitVec 32 := 24#32
  let v17 : BitVec 1 := Scalar.cmpi .eq arg1 c24_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x5 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x5 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x5 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  shapeCasts_S1x200000x128_S200000x128 : S1x200000x128.ShapeCasts S200000x128
  inb_S1x5_S1x5_0_0 : ∀ a, (![0, 0] : Fin 2 → Nat) a + S1x5.size a ≤ S1x5.size a
  h_S1x5 : 0 < S1x5.numel
  shapeCasts_S1x5_S1x5 : S1x5.ShapeCasts S1x5
  inb_S384x128_S384x128_0_0 : ∀ a, (![0, 0] : Fin 2 → Nat) a + S384x128.size a ≤ S384x128.size a
  h_S384x128 : 0 < S384x128.numel
  bitsLt_bf16_f32 : FTy.bits .bf16 < FTy.bits .f32
  inb_S384_S384_0 : ∀ a, (![0] : Fin 1 → Nat) a + S384.size a ≤ S384.size a
  h_S384 : 0 < S384.numel
  inb_S256x384_S256x384_0_0 : ∀ a, (![0, 0] : Fin 2 → Nat) a + S256x384.size a ≤ S256x384.size a
  h_S256x384 : 0 < S256x384.numel
  inb_S256_S256_0 : ∀ a, (![0] : Fin 1 → Nat) a + S256.size a ≤ S256.size a
  h_S256 : 0 < S256.numel
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  inb_S5x128_S5x128_0_0 : ∀ a, (![0, 0] : Fin 2 → Nat) a + S5x128.size a ≤ S5x128.size a
  h_S5x128 : 0 < S5x128.numel
  inb_S5_S5_0 : ∀ a, (![0] : Fin 1 → Nat) a + S5.size a ≤ S5.size a
  h_S5 : 0 < S5.numel
  h_S1000x128 : 0 < S1000x128.numel
  shapeCasts_S1000x128_S1000x128 : S1000x128.ShapeCasts S1000x128
  shapeCasts_S384_S1x384 : S384.ShapeCasts S1x384
  broadcasts_S1x384_S1000x384 : S1x384.Broadcasts S1000x384
  shapeCasts_S256_S1x256 : S256.ShapeCasts S1x256
  broadcasts_S1x256_S1000x256 : S1x256.Broadcasts S1000x256
  shapeCasts_S128_S1x128 : S128.ShapeCasts S1x128
  broadcasts_S1x128_S1000x128 : S1x128.Broadcasts S1000x128
  shapeCasts_S5_S1x5 : S5.ShapeCasts S1x5
  broadcasts_S1x5_S1000x5 : S1x5.Broadcasts S1000x5
  reduces_S1000x5_S5 : S1000x5.Reduces [0] S5
  broadcasts_S1x5_S8x5 : S1x5.Broadcasts S8x5
  inb_S8x5_S8x5_0_0 : ∀ a, (![0, 0] : Fin 2 → Nat) a + S8x5.size a ≤ S8x5.size a
  h_S8x5 : 0 < S8x5.numel
  slices_S16x5_S1x5_0_0 : S16x5.Slices ![0, 0] S1x5
  shapeCasts_S1x5_S5 : S1x5.ShapeCasts S5
  slices_S16x5_S1x5_8_0 : S16x5.Slices ![8, 0] S1x5
  dot_S1000x128_S384x128_S1000x384_1_1_0_0_n_n_wf : DotDims.WF S1000x128 S384x128 S1000x384 [1] [1] [0] [0] [] []
  dot_S1000x384_S256x384_S1000x256_1_1_0_0_n_n_wf : DotDims.WF S1000x384 S256x384 S1000x256 [1] [1] [0] [0] [] []
  dot_S1000x256_S128x256_S1000x128_1_1_0_0_n_n_wf : DotDims.WF S1000x256 S128x256 S1000x128 [1] [1] [0] [0] [] []
  dot_S1000x128_S5x128_S1000x5_1_1_0_0_n_n_wf : DotDims.WF S1000x128 S5x128 S1000x5 [1] [1] [0] [0] [] []
  hrank0 : 0 < grid0.rank
  k0_t1_ok : k0_t1_loop.OK
  k0_mult1_dvd : ∀ k0_t1 : Fin k0_t1_loop.trips, 1000 ∣ (k0_mult1 k0_t1).toNat
  k0_off1_inb : ∀ k0_t1 : Fin k0_t1_loop.trips, ∀ a, (k0_off1 k0_t1) a + S1000x128.size a ≤ S4000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S256x384.size a
  hwx0_3 : ∀ i : grid0.Coords, EltTy.bits .f32 = 32 ∨ (Rect.block (s := S256x384) S256x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x128.size a ≤ S5x128.size a
  hwx0_7 : ∀ i : grid0.Coords, EltTy.bits .f32 = 32 ∨ (Rect.block (s := S5x128) S5x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5.size a ≤ S5.size a
  hwx0_8 : ∀ i : grid0.Coords, EltTy.bits .f32 = 32 ∨ (Rect.block (s := S5) S5.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5.size a ≤ S5.size a
  hwx0_9 : ∀ i : grid0.Coords, EltTy.bits .f32 = 32 ∨ (Rect.block (s := S5) S5.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x5.size a ≤ S16x5.size a
  hwx0_10 : ∀ i : grid0.Coords, EltTy.bits .f32 = 32 ∨ (Rect.block (s := S16x5) S8x5.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x5.size a ≤ S16x5.size a
  hwx0_11 : ∀ i : grid0.Coords, EltTy.bits .f32 = 32 ∨ (Rect.block (s := S16x5) S8x5.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x5.size a ≤ S16x5.size a
  hwx0_12 : ∀ i : grid0.Coords, EltTy.bits .f32 = 32 ∨ (Rect.block (s := S16x5) S8x5.size (cc0_transform_12 i) (hinb0_12 i)).WholeWords (EltTy.packing .f32)

variable [Facts₀]

def dot_S1000x128_S384x128_S1000x384_1_1_0_0_n_n : DotDims S1000x128 S384x128 S1000x384 where
  lhsContracting := [1]
  rhsContracting := [1]
  lhsNonContracting := [0]
  rhsNonContracting := [0]
  lhsBatch := []
  rhsBatch := []
  wf := dot_S1000x128_S384x128_S1000x384_1_1_0_0_n_n_wf
def dot_S1000x384_S256x384_S1000x256_1_1_0_0_n_n : DotDims S1000x384 S256x384 S1000x256 where
  lhsContracting := [1]
  rhsContracting := [1]
  lhsNonContracting := [0]
  rhsNonContracting := [0]
  lhsBatch := []
  rhsBatch := []
  wf := dot_S1000x384_S256x384_S1000x256_1_1_0_0_n_n_wf
def dot_S1000x256_S128x256_S1000x128_1_1_0_0_n_n : DotDims S1000x256 S128x256 S1000x128 where
  lhsContracting := [1]
  rhsContracting := [1]
  lhsNonContracting := [0]
  rhsNonContracting := [0]
  lhsBatch := []
  rhsBatch := []
  wf := dot_S1000x256_S128x256_S1000x128_1_1_0_0_n_n_wf
def dot_S1000x128_S5x128_S1000x5_1_1_0_0_n_n : DotDims S1000x128 S5x128 S1000x5 where
  lhsContracting := [1]
  rhsContracting := [1]
  lhsNonContracting := [0]
  rhsNonContracting := [0]
  lhsBatch := []
  rhsBatch := []
  wf := dot_S1000x128_S5x128_S1000x5_1_1_0_0_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S5x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S5.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_0) S8x5.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1_1) S8x5.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_2) S8x5.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S1x200000x128 : Shape := ⟨3, ![1, 200000, 128]⟩
abbrev S384x128 : Shape := ⟨2, ![384, 128]⟩
abbrev S384 : Shape := ⟨1, ![384]⟩
abbrev S256x384 : Shape := ⟨2, ![256, 384]⟩
abbrev S256 : Shape := ⟨1, ![256]⟩
abbrev S128x256 : Shape := ⟨2, ![128, 256]⟩
abbrev S128 : Shape := ⟨1, ![128]⟩
abbrev S5x128 : Shape := ⟨2, ![5, 128]⟩
abbrev S5 : Shape := ⟨1, ![5]⟩
abbrev S1x200000x384 : Shape := ⟨3, ![1, 200000, 384]⟩
abbrev S1x1x384 : Shape := ⟨3, ![1, 1, 384]⟩
abbrev S1x200000x256 : Shape := ⟨3, ![1, 200000, 256]⟩
abbrev S1x1x256 : Shape := ⟨3, ![1, 1, 256]⟩
abbrev S1x1x128 : Shape := ⟨3, ![1, 1, 128]⟩
abbrev S_ : Shape := ⟨0, ![]⟩
abbrev S1x200000x5 : Shape := ⟨3, ![1, 200000, 5]⟩
abbrev S1x1x5 : Shape := ⟨3, ![1, 1, 5]⟩
abbrev S1x5 : Shape := ⟨2, ![1, 5]⟩

abbrev nBuf : Space → Nat
  | .hbm => 49
  | .vmem => 0
  | .smem => 0
  | _ => 0

abbrev bufTy : (tb : Table) → Fin (tcTables nBuf tb) → BufTy
  | .hbm, ⟨0, _⟩ => ⟨S1x200000x128, .f32⟩
  | .hbm, ⟨1, _⟩ => ⟨S384x128, .f32⟩
  | .hbm, ⟨2, _⟩ => ⟨S384, .f32⟩
  | .hbm, ⟨3, _⟩ => ⟨S256x384, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S5x128, .f32⟩
  | .hbm, ⟨8, _⟩ => ⟨S5, .f32⟩
  | .hbm, ⟨9, _⟩ => ⟨S5, .f32⟩
  | .hbm, ⟨10, _⟩ => ⟨S1x200000x384, .f32⟩
  | .hbm, ⟨11, _⟩ => ⟨S1x1x384, .f32⟩
  | .hbm, ⟨12, _⟩ => ⟨S1x200000x384, .f32⟩
  | .hbm, ⟨13, _⟩ => ⟨S1x200000x384, .f32⟩
  | .hbm, ⟨14, _⟩ => ⟨S1x200000x256, .f32⟩
  | .hbm, ⟨15, _⟩ => ⟨S1x1x256, .f32⟩
  | .hbm, ⟨16, _⟩ => ⟨S1x200000x256, .f32⟩
  | .hbm, ⟨17, _⟩ => ⟨S1x200000x256, .f32⟩
  | .hbm, ⟨18, _⟩ => ⟨S1x200000x128, .f32⟩
  | .hbm, ⟨19, _⟩ => ⟨S1x1x128, .f32⟩
  | .hbm, ⟨20, _⟩ => ⟨S1x200000x128, .f32⟩
  | .hbm, ⟨21, _⟩ => ⟨S1x200000x128, .f32⟩
  | .hbm, ⟨22, _⟩ => ⟨S_, .f32⟩
  | .hbm, ⟨23, _⟩ => ⟨S1x200000x128, .f32⟩
  | .hbm, ⟨24, _⟩ => ⟨S1x200000x128, .f32⟩
  | .hbm, ⟨25, _⟩ => ⟨S1x200000x5, .f32⟩
  | .hbm, ⟨26, _⟩ => ⟨S1x1x5, .f32⟩
  | .hbm, ⟨27, _⟩ => ⟨S1x200000x5, .f32⟩
  | .hbm, ⟨28, _⟩ => ⟨S1x200000x5, .f32⟩
  | .hbm, ⟨29, _⟩ => ⟨S1x1x5, .f32⟩
  | .hbm, ⟨30, _⟩ => ⟨S1x200000x5, .f32⟩
  | .hbm, ⟨31, _⟩ => ⟨S1x200000x5, .f32⟩
  | .hbm, ⟨32, _⟩ => ⟨S_, .f32⟩
  | .hbm, ⟨33, _⟩ => ⟨S1x5, .f32⟩
  | .hbm, ⟨34, _⟩ => ⟨S_, .f32⟩
  | .hbm, ⟨35, _⟩ => ⟨S1x5, .f32⟩
  | .hbm, ⟨36, _⟩ => ⟨S1x5, .f32⟩
  | .hbm, ⟨37, _⟩ => ⟨S1x1x5, .f32⟩
  | .hbm, ⟨38, _⟩ => ⟨S1x200000x5, .f32⟩
  | .hbm, ⟨39, _⟩ => ⟨S1x200000x5, .f32⟩
  | .hbm, ⟨40, _⟩ => ⟨S1x200000x5, .f32⟩
  | .hbm, ⟨41, _⟩ => ⟨S_, .f32⟩
  | .hbm, ⟨42, _⟩ => ⟨S1x5, .f32⟩
  | .hbm, ⟨43, _⟩ => ⟨S1x1x5, .f32⟩
  | .hbm, ⟨44, _⟩ => ⟨S1x200000x5, .f32⟩
  | .hbm, ⟨45, _⟩ => ⟨S1x200000x5, .f32⟩
  | .hbm, ⟨46, _⟩ => ⟨S1x200000x5, .f32⟩
  | .hbm, ⟨47, _⟩ => ⟨S_, .f32⟩
  | .hbm, ⟨48, _⟩ => ⟨S1x5, .f32⟩
  | _, _ => ⟨S1x200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S384_S1x1x384_2 : S384.BroadcastsInDim S1x1x384 (![2] : Fin 1 → Fin S1x1x384.rank)
  bcast_S1x1x384_S1x200000x384_0_1_2 : S1x1x384.BroadcastsInDim S1x200000x384 (![0, 1, 2] : Fin 3 → Fin S1x200000x384.rank)
  bcast_S256_S1x1x256_2 : S256.BroadcastsInDim S1x1x256 (![2] : Fin 1 → Fin S1x1x256.rank)
  bcast_S1x1x256_S1x200000x256_0_1_2 : S1x1x256.BroadcastsInDim S1x200000x256 (![0, 1, 2] : Fin 3 → Fin S1x200000x256.rank)
  bcast_S128_S1x1x128_2 : S128.BroadcastsInDim S1x1x128 (![2] : Fin 1 → Fin S1x1x128.rank)
  bcast_S1x1x128_S1x200000x128_0_1_2 : S1x1x128.BroadcastsInDim S1x200000x128 (![0, 1, 2] : Fin 3 → Fin S1x200000x128.rank)
  bcast_S_S1x200000x128 : S_.BroadcastsInDim S1x200000x128 (![] : Fin 0 → Fin S1x200000x128.rank)
  bcast_S5_S1x1x5_2 : S5.BroadcastsInDim S1x1x5 (![2] : Fin 1 → Fin S1x1x5.rank)
  bcast_S1x1x5_S1x200000x5_0_1_2 : S1x1x5.BroadcastsInDim S1x200000x5 (![0, 1, 2] : Fin 3 → Fin S1x200000x5.rank)
  reducesTo_S1x200000x5_S1x5_d1 : S1x200000x5.ReducesTo [1] S1x5
  h_S_ : 0 < S_.numel
  bcast_S_S1x5 : S_.BroadcastsInDim S1x5 (![] : Fin 0 → Fin S1x5.rank)
  bcast_S1x5_S1x1x5_0_2 : S1x5.BroadcastsInDim S1x1x5 (![0, 2] : Fin 2 → Fin S1x1x5.rank)
  dot_S1x200000x128_S384x128_S1x200000x384_2_1_01_0_n_n_wf : DotDims.WF S1x200000x128 S384x128 S1x200000x384 [2] [1] [0, 1] [0] [] []
  dot_S1x200000x384_S256x384_S1x200000x256_2_1_01_0_n_n_wf : DotDims.WF S1x200000x384 S256x384 S1x200000x256 [2] [1] [0, 1] [0] [] []
  dot_S1x200000x256_S128x256_S1x200000x128_2_1_01_0_n_n_wf : DotDims.WF S1x200000x256 S128x256 S1x200000x128 [2] [1] [0, 1] [0] [] []
  dot_S1x200000x128_S5x128_S1x200000x5_2_1_01_0_n_n_wf : DotDims.WF S1x200000x128 S5x128 S1x200000x5 [2] [1] [0, 1] [0] [] []

variable [Facts₀]

def dot_S1x200000x128_S384x128_S1x200000x384_2_1_01_0_n_n : DotDims S1x200000x128 S384x128 S1x200000x384 where
  lhsContracting := [2]
  rhsContracting := [1]
  lhsNonContracting := [0, 1]
  rhsNonContracting := [0]
  lhsBatch := []
  rhsBatch := []
  wf := dot_S1x200000x128_S384x128_S1x200000x384_2_1_01_0_n_n_wf
def dot_S1x200000x384_S256x384_S1x200000x256_2_1_01_0_n_n : DotDims S1x200000x384 S256x384 S1x200000x256 where
  lhsContracting := [2]
  rhsContracting := [1]
  lhsNonContracting := [0, 1]
  rhsNonContracting := [0]
  lhsBatch := []
  rhsBatch := []
  wf := dot_S1x200000x384_S256x384_S1x200000x256_2_1_01_0_n_n_wf
def dot_S1x200000x256_S128x256_S1x200000x128_2_1_01_0_n_n : DotDims S1x200000x256 S128x256 S1x200000x128 where
  lhsContracting := [2]
  rhsContracting := [1]
  lhsNonContracting := [0, 1]
  rhsNonContracting := [0]
  lhsBatch := []
  rhsBatch := []
  wf := dot_S1x200000x256_S128x256_S1x200000x128_2_1_01_0_n_n_wf
def dot_S1x200000x128_S5x128_S1x200000x5_2_1_01_0_n_n : DotDims S1x200000x128 S5x128 S1x200000x5 where
  lhsContracting := [2]
  rhsContracting := [1]
  lhsNonContracting := [0, 1]
  rhsNonContracting := [0]
  lhsBatch := []
  rhsBatch := []
  wf := dot_S1x200000x128_S5x128_S1x200000x5_2_1_01_0_n_n_wf

class Facts : Prop extends Facts₀ where

variable [Facts]
-- ==== Proof.KRun.lean ====
import proofs.«146061_j43422119363005_2_alg».proof.Proof.Gen.KernelIdeal.Frame

set_option maxRecDepth 16384

noncomputable section

/-!
  The run of the kernel program with its result named.

  Every execution of the kernel program ends; the result buffer then holds what the operations after
  the pipelined region compute from the arrays the region left, and the ten argument arrays are
  unchanged.
-/

namespace Cert.Pool.K

open Cert.KernelIdeal Cert.KernelIdeal.Gen
open Idealize.ShloMosaic Idealize.ShloMosaic.TcCoe
open Idealize.SL Idealize.SL.Sem

variable {F : FTy → Type} [FloatOps F]

/-- The kernel program runs to a state whose result buffer is the tail of host operations applied to the region's
    final arrays, with the arguments as they were. -/
theorem kernel_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v26) = Pipeline.afterTail₀ cfgs (dats (F := F) m) 0 (V0 m) [hostOps1] c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v26 (Pipeline.mem_restRefs_of main_v26 (by decide) (by decide)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩) (run_main m ρ)

end Cert.Pool.K

end
-- ==== Proof.KTrip.lean ====
import proofs.«146061_j43422119363005_2_alg».proof.Proof.Gen.KernelIdeal.Loops
import Idealize.ShloMosaic.Lib.Pipeline.Value

set_option maxRecDepth 16384

noncomputable section

/-!
  One trip of the chunk loop as three pure functions of what the trip finds.

  A trip loads 1000 rows of the tile and the three carried rows (running maximum m, running sum
  of exponentials l, running weighted sum a) and stores the three rows back whole.  So what the
  three carried buffers hold after the trip is a function (newM, newL, newA) of the chunk and of
  what they held before, and after four trips it is that function iterated over the four chunks.
-/

namespace Cert.Pool.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The carried rows are addressed whole: offsets zero. -/
theorem hz15 : (![0, 0] : Fin S1x5.rank → ℕ) = fun _ => 0 := by
  funext a; match a with | ⟨0, _⟩ => rfl | ⟨1, _⟩ => rfl

/-- Chunk k of a tile: its rows 1000 k … 1000 k + 999. -/
def xchunk (X : Vec F S4000x128 .f32) (k : Fin k0_t1_loop.trips) : Vec F S1000x128 .f32 :=
  View.ld X (Rect.unit (s := S4000x128) (k0_off1 k) S1000x128.size (k0_off1_inb k))

/-- The running maximum after a chunk. -/
def newM (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (x : Vec F S1000x128 .f32) (m : Vec F S1x5 .f32) : Vec F S1x5 .f32 :=
  k0_pay10 (k0_pay16 (k0_pay4 v3) v5 (k0_pay5 v6) v8 (k0_pay6 v9) v11 (k0_pay7 v12) v14 v15 x m)

/-- The running sum of exponentials after a chunk. -/
def newL (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (x : Vec F S1000x128 .f32) (m l : Vec F S1x5 .f32) : Vec F S1x5 .f32 :=
  k0_pay8 (k0_pay17 (k0_pay4 v3) v5 (k0_pay5 v6) v8 (k0_pay6 v9) v11 (k0_pay7 v12) v14 v15 x m m) (k0_pay18 (k0_pay4 v3) v5 (k0_pay5 v6) v8 (k0_pay6 v9) v11 (k0_pay7 v12) v14 v15 x m) l

/-- The running weighted sum after a chunk. -/
def newA (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (x : Vec F S1000x128 .f32) (m a : Vec F S1x5 .f32) : Vec F S1x5 .f32 :=
  k0_pay9 (k0_pay14 (k0_pay4 v3) v5 (k0_pay5 v6) v8 (k0_pay6 v9) v11 (k0_pay7 v12) v14 x) (k0_pay17 (k0_pay4 v3) v5 (k0_pay5 v6) v8 (k0_pay6 v9) v11 (k0_pay7 v12) v14 v15 x m m) (k0_pay18 (k0_pay4 v3) v5 (k0_pay5 v6) v8 (k0_pay6 v9) v11 (k0_pay7 v12) v14 v15 x m) a

/-- What one trip writes: each carried buffer whole, with the three functions above of the chunk and of what the
    buffers held. -/
theorem tripL_eq (𝒱 : Variants) (c : Dev nD) (bd : Option 𝒱.V) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (X_arg2 : BufTy.Contents (Elt F) arg2.view.ty) (k : Fin k0_t1_loop.trips) (f_arg15 : BufTy.Contents (Elt F) arg15.view.ty) (f_arg16 : BufTy.Contents (Elt F) arg16.view.ty) (f_arg17 : BufTy.Contents (Elt F) arg17.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 k f_arg15 f_arg16 f_arg17
      = ([⟨Rect.unit (s := S1x5) ![0, 0] S1x5.size inb_S1x5_S1x5_0_0,
            newM v3 v5 v6 v8 v9 v11 v12 v14 v15 (xchunk (arg2.view.read (Elt F) X_arg2) k) (arg15.view.read (Elt F) f_arg15)⟩],
         [⟨Rect.unit (s := S1x5) ![0, 0] S1x5.size inb_S1x5_S1x5_0_0,
            newL v3 v5 v6 v8 v9 v11 v12 v14 v15 (xchunk (arg2.view.read (Elt F) X_arg2) k) (arg15.view.read (Elt F) f_arg15) (arg16.view.read (Elt F) f_arg16)⟩],
         [⟨Rect.unit (s := S1x5) ![0, 0] S1x5.size inb_S1x5_S1x5_0_0,
            newA v3 v5 v6 v8 v9 v11 v12 v14 v15 (xchunk (arg2.view.read (Elt F) X_arg2) k) (arg15.view.read (Elt F) f_arg15) (arg17.view.read (Elt F) f_arg17)⟩]) := by
  unfold tripL_k0_t1 trip_k0_t1
  dsimp only
  sl_unfold_words
  simp only [View.readAt_eq_ld, View.ld_unit_zero (S := S1x5) hz15]
  rfl

/-- The same, one carried buffer at a time. -/
theorem trip_fst (𝒱 : Variants) (c : Dev nD) (bd : Option 𝒱.V) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (X_arg2 : BufTy.Contents (Elt F) arg2.view.ty) (k : Fin k0_t1_loop.trips) (f_arg15 : BufTy.Contents (Elt F) arg15.view.ty) (f_arg16 : BufTy.Contents (Elt F) arg16.view.ty) (f_arg17 : BufTy.Contents (Elt F) arg17.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 k).1 f_arg15 f_arg16 f_arg17 = [⟨Rect.unit (s := S1x5) ![0, 0] S1x5.size inb_S1x5_S1x5_0_0, newM v3 v5 v6 v8 v9 v11 v12 v14 v15 (xchunk (arg2.view.read (Elt F) X_arg2) k) (arg15.view.read (Elt F) f_arg15)⟩] :=
  congrArg Prod.fst (tripL_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 k f_arg15 f_arg16 f_arg17)

theorem trip_snd (𝒱 : Variants) (c : Dev nD) (bd : Option 𝒱.V) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (X_arg2 : BufTy.Contents (Elt F) arg2.view.ty) (k : Fin k0_t1_loop.trips) (f_arg15 : BufTy.Contents (Elt F) arg15.view.ty) (f_arg16 : BufTy.Contents (Elt F) arg16.view.ty) (f_arg17 : BufTy.Contents (Elt F) arg17.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 k).2.1 f_arg15 f_arg16 f_arg17 = [⟨Rect.unit (s := S1x5) ![0, 0] S1x5.size inb_S1x5_S1x5_0_0, newL v3 v5 v6 v8 v9 v11 v12 v14 v15 (xchunk (arg2.view.read (Elt F) X_arg2) k) (arg15.view.read (Elt F) f_arg15) (arg16.view.read (Elt F) f_arg16)⟩] :=
  congrArg (fun p => p.2.1) (tripL_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 k f_arg15 f_arg16 f_arg17)

theorem trip_trd (𝒱 : Variants) (c : Dev nD) (bd : Option 𝒱.V) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (X_arg2 : BufTy.Contents (Elt F) arg2.view.ty) (k : Fin k0_t1_loop.trips) (f_arg15 : BufTy.Contents (Elt F) arg15.view.ty) (f_arg16 : BufTy.Contents (Elt F) arg16.view.ty) (f_arg17 : BufTy.Contents (Elt F) arg17.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 k).2.2.1 f_arg15 f_arg16 f_arg17 = [⟨Rect.unit (s := S1x5) ![0, 0] S1x5.size inb_S1x5_S1x5_0_0, newA v3 v5 v6 v8 v9 v11 v12 v14 v15 (xchunk (arg2.view.read (Elt F) X_arg2) k) (arg15.view.read (Elt F) f_arg15) (arg17.view.read (Elt F) f_arg17)⟩] :=
  congrArg (fun p => p.2.2) (tripL_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 k f_arg15 f_arg16 f_arg17)

/-- A carried buffer stored whole reads back the stored row, whatever was stored before. -/
theorem read_write15 {sig' : RefSig} {κ : Kind} {sp : Space} (v : View sig' κ sp S1x5 .f32) (f : v.ty.Contents (Elt F)) (w : S1x5.Idx → Elt F .f32)
    (L : List (View.Piece (Elt F) S1x5 .f32)) :
    v.read (Elt F) (v.writes (Elt F) f (⟨Rect.unit (s := S1x5) ![0, 0] S1x5.size inb_S1x5_S1x5_0_0, w⟩ :: L)) = w := by
  rw [View.read_writes_eq_canon _ _ _ (fun y => ⟨_, List.mem_cons_self, View.mem_set_unit_zero hz15 inb_S1x5_S1x5_0_0 y⟩),
    View.canon_cons_unit_zero hz15]

theorem read_write15' {sig' : RefSig} {κ : Kind} {sp : Space} (v : View sig' κ sp S1x5 .f32) (f : v.ty.Contents (Elt F)) (w : S1x5.Idx → Elt F .f32)
    (L : List (View.Piece (Elt F) S1x5 .f32)) :
    v.read (Elt F) (v.writes (Elt F) f (⟨Rect.unit (s := S1x5) ![0, 0] ![1, 5] inb_S1x5_S1x5_0_0, w⟩ :: L)) = w :=
  read_write15 v f w L

/-- The three carried rows after the first k trips over a tile, from what they held at the loop's entry. -/
def stAfter (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (X : Vec F S4000x128 .f32) (s0 : Vec F S1x5 .f32 × Vec F S1x5 .f32 × Vec F S1x5 .f32) :
    ℕ → Vec F S1x5 .f32 × Vec F S1x5 .f32 × Vec F S1x5 .f32
  | 0 => s0
  | k + 1 =>
    if h : k < k0_t1_loop.trips then
      (newM v3 v5 v6 v8 v9 v11 v12 v14 v15 (xchunk X ⟨k, h⟩) (stAfter v3 v5 v6 v8 v9 v11 v12 v14 v15 X s0 k).1,
       newL v3 v5 v6 v8 v9 v11 v12 v14 v15 (xchunk X ⟨k, h⟩) (stAfter v3 v5 v6 v8 v9 v11 v12 v14 v15 X s0 k).1 (stAfter v3 v5 v6 v8 v9 v11 v12 v14 v15 X s0 k).2.1,
       newA v3 v5 v6 v8 v9 v11 v12 v14 v15 (xchunk X ⟨k, h⟩) (stAfter v3 v5 v6 v8 v9 v11 v12 v14 v15 X s0 k).1 (stAfter v3 v5 v6 v8 v9 v11 v12 v14 v15 X s0 k).2.2)
    else stAfter v3 v5 v6 v8 v9 v11 v12 v14 v15 X s0 k

/-- What the three carried buffers read after the pieces of the first k trips: the iterated trip functions. -/
theorem pb_read (𝒱 : Variants) (c : Dev nD) (bd : Option 𝒱.V) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (v3 : Vec F S384x128 .f32) (v5 : Vec F S384 .f32) (v6 : Vec F S256x384 .f32) (v8 : Vec F S256 .f32) (v9 : Vec F S128x256 .f32) (v11 : Vec F S128 .f32) (v12 : Vec F S5x128 .f32) (v14 : Vec F S5 .f32) (v15 : Vec F S5 .f32) (X_arg2 : BufTy.Contents (Elt F) arg2.view.ty) (G_arg15 : BufTy.Contents (Elt F) arg15.view.ty) (G_arg16 : BufTy.Contents (Elt F) arg16.view.ty) (G_arg17 : BufTy.Contents (Elt F) arg17.view.ty) (k : ℕ) (hk : k ≤ k0_t1_loop.trips) :
    (arg15.view.read (Elt F) (arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 G_arg15 G_arg16 G_arg17 k).1),
     arg16.view.read (Elt F) (arg16.view.writes (Elt F) G_arg16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 G_arg15 G_arg16 G_arg17 k).2.1),
     arg17.view.read (Elt F) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 G_arg15 G_arg16 G_arg17 k).2.2))
      = stAfter v3 v5 v6 v8 v9 v11 v12 v14 v15 (arg2.view.read (Elt F) X_arg2) (arg15.view.read (Elt F) G_arg15, arg16.view.read (Elt F) G_arg16, arg17.view.read (Elt F) G_arg17) k := by
  induction k with
  | zero => rfl
  | succ k ih =>
    have h : k < k0_t1_loop.trips := hk
    have ih' := ih (Nat.le_of_lt h)
    have e : pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 G_arg15 G_arg16 G_arg17 (k + 1) = _ :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 v6 v8 v9 v11 v12 v14 v15 X_arg2 G_arg15 G_arg16 G_arg17 ⟨k, h⟩
    rw [e]
    simp only [trip_fst, trip_snd, trip_trd, List.cons_append, List.nil_append, read_write15']
    rw [stAfter, dif_pos h, ← ih']

end Cert.Pool.K

end
-- ==== Proof.KPoint.lean ====
import proofs.«146061_j43422119363005_2_alg».proof.Proof.Gen.KernelIdeal.Frame
import proofs.«146061_j43422119363005_2_alg».proof.Proof.KTrip

set_option maxRecDepth 16384

noncomputable section

/-!
  One grid point as a pure function of its input blocks and of the carried rows it finds.

  At the first point of a core the three carried rows are reset to (-∞, 0, 0) before the chunk
  loop; at every other point the loop starts from what the point before left.  After the loop the
  rows hold the four-fold iterate of the trip functions (ptState).  At the last point of a core the
  three rows are also stretched to eight rows and stored as the core's output blocks.
-/

namespace Cert.Pool.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz2 : (![0, 0] : Fin 2 → ℕ) = fun _ => 0 := by
  funext a; match a with | ⟨0, _⟩ => rfl | ⟨1, _⟩ => rfl
theorem hz1 : (![0] : Fin 1 → ℕ) = fun _ => 0 := by
  funext a; match a with | ⟨0, _⟩ => rfl

/-- A whole load of a whole buffer holding x reads x. -/
theorem readAt_unread {S : Shape} (mr : Memref sig .tc .vmem S .f32) (hm : mr.IsWhole) (x : Vec F S .f32)
    {off : Fin S.rank → ℕ} (hoff : off = fun _ => 0) (inb : ∀ a, off a + S.size a ≤ S.size a) :
    View.readAt (Elt F) mr.view (Rect.unit (s := S) off S.size inb).toLoadRect (hm.unread x) = x := by
  rw [View.readAt_eq_ld, hm.read_unread]
  exact View.ld_unit_zero hoff _ _

/-- The carried rows after the chunk loop of a point, from the rows s0 it starts with. -/
def ptState (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (s0 : Vec F S1x5 .f32 × Vec F S1x5 .f32 × Vec F S1x5 .f32) :
    Vec F S1x5 .f32 × Vec F S1x5 .f32 × Vec F S1x5 .f32 :=
  stAfter x1 x2 x3 x4 x5 x6 x7 x8 x9 x0 s0 k0_t1_loop.trips

/-- The rows a core's first point resets the carried buffers to. -/
def initState : Vec F S1x5 .f32 × Vec F S1x5 .f32 × Vec F S1x5 .f32 := (k0_pay1, k0_pay2, k0_pay3)

theorem sout0_A_0_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : cond0_0 i) (hc1 : ¬cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) :
    sout0_A_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = (ptState x0 x1 x2 x3 x4 x5 x6 x7 x8 x9 initState).1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9),
    ← View.read_writes_eq_canon arg15.view arg15.view.junk _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.writes_append]
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg Prod.fst (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, read_write15, read_write15, read_write15]
  rfl

theorem sout0_A_1_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : cond0_0 i) (hc1 : ¬cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) :
    sout0_A_1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = (ptState x0 x1 x2 x3 x4 x5 x6 x7 x8 x9 initState).2.1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9),
    ← View.read_writes_eq_canon arg16.view arg16.view.junk _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.writes_append]
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg (fun p => p.2.1) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, read_write15, read_write15, read_write15]
  rfl

theorem sout0_A_2_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : cond0_0 i) (hc1 : ¬cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) :
    sout0_A_2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = (ptState x0 x1 x2 x3 x4 x5 x6 x7 x8 x9 initState).2.2 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9),
    ← View.read_writes_eq_canon arg17.view arg17.view.junk _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.writes_append]
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg (fun p => p.2.2) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, read_write15, read_write15, read_write15]
  rfl

theorem sout0_B_0_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : ¬cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    sout0_B_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = (ptState x0 x1 x2 x3 x4 x5 x6 x7 x8 x9 (xs0, xs1, xs2)).1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2),
    ← View.read_writes_eq_canon arg15.view (harg15.unread xs0) _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_B
  dsimp only
  try sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg Prod.fst (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, harg15.read_unread, harg16.read_unread, harg17.read_unread]
  rfl

theorem sout0_B_1_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : ¬cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    sout0_B_1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = (ptState x0 x1 x2 x3 x4 x5 x6 x7 x8 x9 (xs0, xs1, xs2)).2.1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2),
    ← View.read_writes_eq_canon arg16.view (harg16.unread xs1) _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_B
  dsimp only
  try sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg (fun p => p.2.1) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, harg15.read_unread, harg16.read_unread, harg17.read_unread]
  rfl

theorem sout0_B_2_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : ¬cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    sout0_B_2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = (ptState x0 x1 x2 x3 x4 x5 x6 x7 x8 x9 (xs0, xs1, xs2)).2.2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2),
    ← View.read_writes_eq_canon arg17.view (harg17.unread xs2) _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_B
  dsimp only
  try sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg (fun p => p.2.2) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, harg15.read_unread, harg16.read_unread, harg17.read_unread]
  rfl

theorem sout0_C_0_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    sout0_C_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = (ptState x0 x1 x2 x3 x4 x5 x6 x7 x8 x9 (xs0, xs1, xs2)).1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2),
    ← View.read_writes_eq_canon arg15.view (harg15.unread xs0) _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  try sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg Prod.fst (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, harg15.read_unread, harg16.read_unread, harg17.read_unread]
  rfl

theorem sout0_C_1_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    sout0_C_1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = (ptState x0 x1 x2 x3 x4 x5 x6 x7 x8 x9 (xs0, xs1, xs2)).2.1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2),
    ← View.read_writes_eq_canon arg16.view (harg16.unread xs1) _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  try sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg (fun p => p.2.1) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, harg15.read_unread, harg16.read_unread, harg17.read_unread]
  rfl

theorem sout0_C_2_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    sout0_C_2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = (ptState x0 x1 x2 x3 x4 x5 x6 x7 x8 x9 (xs0, xs1, xs2)).2.2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2),
    ← View.read_writes_eq_canon arg17.view (harg17.unread xs2) _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  try sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  refine (congrArg (fun p => p.2.2) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_
  rw [harg2.read_unread, harg15.read_unread, harg16.read_unread, harg17.read_unread]
  rfl

theorem out0_C_10_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    out0_C_10 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = k0_pay11 (ptState x0 x1 x2 x3 x4 x5 x6 x7 x8 x9 (xs0, xs1, xs2)).1 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  rw [View.canon_unit_zero (S := S8x5) hz2]
  sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  rw [View.readAt_eq_ld, View.ld_unit_zero (S := S1x5) hz15]
  refine congrArg k0_pay11 ((congrArg Prod.fst (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_)
  rw [harg2.read_unread, harg15.read_unread, harg16.read_unread, harg17.read_unread]
  rfl

theorem out0_C_11_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    out0_C_11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = k0_pay12 (ptState x0 x1 x2 x3 x4 x5 x6 x7 x8 x9 (xs0, xs1, xs2)).2.1 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  rw [View.canon_unit_zero (S := S8x5) hz2]
  sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  rw [View.readAt_eq_ld, View.ld_unit_zero (S := S1x5) hz15]
  refine congrArg k0_pay12 ((congrArg (fun p => p.2.1) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_)
  rw [harg2.read_unread, harg15.read_unread, harg16.read_unread, harg17.read_unread]
  rfl

theorem out0_C_12_eq (c : Dev nD) (i : grid0.Coords) (arg2 : Memref sig .tc .vmem S4000x128 .f32) (harg2 : arg2.IsWhole) (arg3 : Memref sig .tc .vmem S384x128 .f32) (harg3 : arg3.IsWhole) (arg4 : Memref sig .tc .vmem S384 .f32) (harg4 : arg4.IsWhole) (arg5 : Memref sig .tc .vmem S256x384 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128 .f32) (harg8 : arg8.IsWhole) (arg9 : Memref sig .tc .vmem S5x128 .f32) (harg9 : arg9.IsWhole) (arg10 : Memref sig .tc .vmem S5 .f32) (harg10 : arg10.IsWhole) (arg11 : Memref sig .tc .vmem S5 .f32) (harg11 : arg11.IsWhole) (arg12 : Memref sig .tc .vmem S8x5 .f32) (harg12 : arg12.IsWhole) (arg13 : Memref sig .tc .vmem S8x5 .f32) (harg13 : arg13.IsWhole) (arg14 : Memref sig .tc .vmem S8x5 .f32) (harg14 : arg14.IsWhole) (arg15 : Memref sig .tc .vmem S1x5 .f32) (harg15 : arg15.IsWhole) (arg16 : Memref sig .tc .vmem S1x5 .f32) (harg16 : arg16.IsWhole) (arg17 : Memref sig .tc .vmem S1x5 .f32) (harg17 : arg17.IsWhole) (hc0 : ¬cond0_0 i) (hc1 : cond0_1 i) (x0 : Vec F S4000x128 .f32) (x1 : Vec F S384x128 .f32) (x2 : Vec F S384 .f32) (x3 : Vec F S256x384 .f32) (x4 : Vec F S256 .f32) (x5 : Vec F S128x256 .f32) (x6 : Vec F S128 .f32) (x7 : Vec F S5x128 .f32) (x8 : Vec F S5 .f32) (x9 : Vec F S5 .f32) (xs0 : Vec F S1x5 .f32) (xs1 : Vec F S1x5 .f32) (xs2 : Vec F S1x5 .f32) :
    out0_C_12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = k0_pay13 (ptState x0 x1 x2 x3 x4 x5 x6 x7 x8 x9 (xs0, xs1, xs2)).2.2 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  rw [View.canon_unit_zero (S := S8x5) hz2]
  sl_unfold_words
  rw [readAt_unread arg3 harg3 x1 hz2 _, readAt_unread arg4 harg4 x2 hz1 _, readAt_unread arg5 harg5 x3 hz2 _, readAt_unread arg6 harg6 x4 hz1 _, readAt_unread arg7 harg7 x5 hz2 _, readAt_unread arg8 harg8 x6 hz1 _, readAt_unread arg9 harg9 x7 hz2 _, readAt_unread arg10 harg10 x8 hz1 _, readAt_unread arg11 harg11 x9 hz1 _]
  rw [View.readAt_eq_ld, View.ld_unit_zero (S := S1x5) hz15]
  refine congrArg k0_pay13 ((congrArg (fun p => p.2.2) (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (harg2.unread x0) _ _ _ _ (le_refl _))).trans ?_)
  rw [harg2.read_unread, harg15.read_unread, harg16.read_unread, harg17.read_unread]
  rfl

end Cert.Pool.K

end
-- ==== Proof.KGrid.lean ====
import proofs.«146061_j43422119363005_2_alg».proof.Proof.KPoint

set_option maxRecDepth 16384

noncomputable section

/-!
  The carried rows point by point.

  After the point at position t the three carried rows hold: at the first point of a core, the
  chunk loop's result from the reset rows; at any other point, the chunk loop's result from what
  the point before left.
-/

namespace Cert.Pool.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- The three carried rows after the point at position n. -/
def scr (c : Dev nD) (n : ℕ) (hn : n < cfg0.N) : Vec F S1x5 .f32 × Vec F S1x5 .f32 × Vec F S1x5 .f32 :=
  ((outsAt0 m c n hn).2.2.2.1, (outsAt0 m c n hn).2.2.2.2.1, (outsAt0 m c n hn).2.2.2.2.2)

/-- At a core's first point: the loop's result from the reset rows. -/
theorem scr_first (c : Dev nD) (t : Fin cfg0.N) (h0 : t.val % 25 = 0) :
    scr m c t.val t.isLt = ptState (iblk m c 0 t) (iblk m c 1 t) (iblk m c 2 t) (iblk m c 3 t) (iblk m c 4 t) (iblk m c 5 t) (iblk m c 6 t) (iblk m c 7 t) (iblk m c 8 t) (iblk m c 9 t) initState := by
  have h1 : ¬t.val % 25 = 24 := by omega
  unfold scr
  rw [outsAt0_A m c t h0 h1]
  dsimp only
  exact Prod.ext (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t))
    (Prod.ext (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t))
      (sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)))

/-- At any other point: the loop's result from what the point before left. -/
theorem scr_next (c : Dev nD) (t : Fin cfg0.N) (h0 : ¬t.val % 25 = 0) :
    scr m c t.val t.isLt = ptState (iblk m c 0 t) (iblk m c 1 t) (iblk m c 2 t) (iblk m c 3 t) (iblk m c 4 t) (iblk m c 5 t) (iblk m c 6 t) (iblk m c 7 t) (iblk m c 8 t) (iblk m c 9 t) (scr m c (t.val - 1) (Nat.lt_of_le_of_lt (Nat.sub_le _ _) t.isLt)) := by
  unfold scr
  by_cases h1 : t.val % 25 = 24
  · rw [outsAt0_C m c t h0 h1]
    dsimp only
    exact Prod.ext (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _)
      (Prod.ext (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _)
        (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _))
  · rw [outsAt0_B m c t h0 h1]
    dsimp only
    exact Prod.ext (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _ _)
      (Prod.ext (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _ _)
        (sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _ _))

end Cert.Pool.K

end
-- ==== Proof.Spec.lean ====
/-
  The specification both programs are compared against, on the extended reals.

  A row of features goes through four dense layers (the third followed by a clamp at zero) and
  ends as five logits p.  Each of the five columns is then pooled over all rows with softmax
  weights of α · p:  ∑ₙ pₙ · softmax(α p)ₙ.

  The reference takes the maximum over all rows first, then the exponentials, their sum, the
  quotients and the weighted sum (refPool).  The kernel walks over the rows in chunks and carries
  a running maximum m, a running sum l of exp (α p − m) and a running sum a of
  p · exp (α p − m), rescaling both sums by exp (m − m') whenever the maximum moves (upd,
  chunkState); two such walks over the two halves of the rows are merged and divided at the end
  (merge).
-/
import Idealize.ShloMosaic.PureOps.Ideal

noncomputable section

namespace Cert.Pool

open Idealize.ShloMosaic

/-- One dense layer: x ↦ x · Wᵀ + b, the weight stored one row per output. -/
def dense {K N : ℕ} (W : Fin N → Fin K → EReal) (b : Fin N → EReal) (x : Fin K → EReal) : Fin N → EReal :=
  fun j => (∑ k : Fin K, x k * W j k) + b j

/-- The five logits of one row of features. -/
def logit (W1 : Fin 384 → Fin 128 → EReal) (b1 : Fin 384 → EReal) (W2 : Fin 256 → Fin 384 → EReal) (b2 : Fin 256 → EReal)
    (W3 : Fin 128 → Fin 256 → EReal) (b3 : Fin 128 → EReal) (W4 : Fin 5 → Fin 128 → EReal) (b4 : Fin 5 → EReal)
    (x : Fin 128 → EReal) : Fin 5 → EReal :=
  dense W4 b4 (fun j => max (dense W3 b3 (dense W2 b2 (dense W1 b1 x)) j) 0)

/-- One chunk of b rows folded into the running state (m, l, a) of one column. -/
def upd {b : ℕ} (α : EReal) (p : Fin b → EReal) (st : EReal × EReal × EReal) : EReal × EReal × EReal :=
  let m' := max st.1 ((Finset.univ : Finset (Fin b)).fold max ⊥ (fun r => α * p r))
  let corr := Ideal.exp (st.1 - m')
  (m', corr * st.2.1 + ∑ r : Fin b, Ideal.exp (α * p r - m'),
       corr * st.2.2 + ∑ r : Fin b, p r * Ideal.exp (α * p r - m'))

/-- The running state after the first q chunks of b rows each, from the empty state (-∞, 0, 0). -/
def chunkState (α : EReal) (P : ℕ → EReal) (b : ℕ) : ℕ → EReal × EReal × EReal
  | 0 => (⊥, 0, 0)
  | q + 1 => upd α (fun r : Fin b => P (q * b + r.val)) (chunkState α P b q)

/-- Two running states (of two disjoint sets of rows) merged and normalised. -/
def merge (s0 s1 : EReal × EReal × EReal) : EReal :=
  let nm := max s0.1 s1.1
  let c0 := Ideal.exp (s0.1 - nm)
  let c1 := Ideal.exp (s1.1 - nm)
  Ideal.div (c0 * s0.2.2 + c1 * s1.2.2) (c0 * s0.2.1 + c1 * s1.2.1)

/-- The reference's pooling of one column: maximum first, then normalised exponentials, then the weighted sum. -/
def refPool {n : ℕ} (α : EReal) (p : Fin n → EReal) : EReal :=
  let M := max ⊥ ((Finset.univ : Finset (Fin n)).fold max ⊥ (fun i => α * p i))
  0 + ∑ i : Fin n, p i * Ideal.div (Ideal.exp (α * p i - M)) (0 + ∑ i' : Fin n, Ideal.exp (α * p i' - M))

end Cert.Pool

end
-- ==== Proof.Arr.lean ====
import proofs.«146061_j43422119363005_2_alg».proof.Proof.Spec
import Idealize.ShloMosaic.Lib.ValueIdx

set_option maxRecDepth 16384

noncomputable section

/-!
  Arrays read as matrices, vectors and rows, so that both programs' results can be stated over
  the same functions of the same ten argument arrays.
-/

namespace Cert.Pool

open Idealize.ShloMosaic Idealize.ShloMosaic.ValueIdx

/-- A two-axis array as a matrix. -/
def mat {N K : ℕ} (v : (⟨2, ![N, K]⟩ : Shape).Idx → EReal) : Fin N → Fin K → EReal := fun j k => v (ix2 j k)

/-- A one-axis array as a vector. -/
def vec {N : ℕ} (v : (⟨1, ![N]⟩ : Shape).Idx → EReal) : Fin N → EReal := fun j => v (ix1 j)

/-- Row r of a two-axis array. -/
def row {M K : ℕ} (v : (⟨2, ![M, K]⟩ : Shape).Idx → EReal) (r : Fin M) : Fin K → EReal := fun k => v (ix2 r k)

/-- Row n of the one-deep stack of feature rows the programs are given. -/
def xrow {N K : ℕ} (v : (⟨3, ![1, N, K]⟩ : Shape).Idx → EReal) (n : Fin N) : Fin K → EReal := fun k => v (ix3 (0 : Fin 1) n k)

/-- The five logits of row n of the given features under the given weights. -/
def logitOf (x0 : (⟨3, ![1, 200000, 128]⟩ : Shape).Idx → EReal) (x1 : (⟨2, ![384, 128]⟩ : Shape).Idx → EReal) (x2 : (⟨1, ![384]⟩ : Shape).Idx → EReal)
    (x3 : (⟨2, ![256, 384]⟩ : Shape).Idx → EReal) (x4 : (⟨1, ![256]⟩ : Shape).Idx → EReal) (x5 : (⟨2, ![128, 256]⟩ : Shape).Idx → EReal)
    (x6 : (⟨1, ![128]⟩ : Shape).Idx → EReal) (x7 : (⟨2, ![5, 128]⟩ : Shape).Idx → EReal) (x8 : (⟨1, ![5]⟩ : Shape).Idx → EReal)
    (n : Fin 200000) : Fin 5 → EReal :=
  logit (mat x1) (vec x2) (mat x3) (vec x4) (mat x5) (vec x6) (mat x7) (vec x8) (xrow x0 n)

end Cert.Pool

end
-- ==== Proof.LibMatmulNT.lean ====
/-
  A matrix product whose right operand is contracted on its LAST axis, read at an index: for the dimension
  numbers that contract the left operand's second axis with the right operand's second (rows × inner times
  columns × inner, no batch axis — the product of a matrix with the transpose of another, the transpose never
  formed), a product into the zero accumulator is, at `(i, j)`, the sum over the inner coordinate `k` of
  `lhs (i, k) · rhs (j, k)`.
-/
import Idealize.ShloMosaic.PureOps.Ideal.Laws
import Idealize.ShloMosaic.Lib.ValueIdx

noncomputable section

namespace Idealize.ShloMosaic.ValueIdx

/-- The product with a right operand contracted on its last axis, into the zero accumulator, at `(i, j)`, as a sum
    over the inner coordinate. -/
theorem matmul_transposedRhs_zero_apply (M K N : ℕ) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact hk)
  rw [el, er]

end Idealize.ShloMosaic.ValueIdx

end
-- ==== Proof.Trip.lean ====
import proofs.«146061_j43422119363005_2_alg».proof.Proof.Gen.KernelIdeal.Skeleton
import proofs.«146061_j43422119363005_2_alg».proof.Proof.Arr
import proofs.«146061_j43422119363005_2_alg».proof.Proof.KTrip
import proofs.«146061_j43422119363005_2_alg».proof.Proof.LibMatmulNT
import Idealize.ShloMosaic.Lib.ValueLayout
import Idealize.ShloMosaic.Lib.Pipeline.Value
import Idealize.ShloMosaic.PureOps.Ideal.Laws

set_option maxRecDepth 16384

noncomputable section

/-!
  One chunk of 1000 rows read at an index.

  The chunk's features go through the four dense layers (each a product with a weight contracted
  on its last axis, into a zero accumulator, plus a bias row stretched over the rows; the third
  clamped at zero), so row r of the result holds the five logits of row r of the chunk.  The
  three carried rows (running maximum, running sum of exponentials, running weighted sum) are
  then updated column by column exactly as Cert.Pool.upd says: the logits are scaled column by
  column, their maximum over the chunk's rows is taken from minus infinity and compared with the
  old maximum, the old sums are multiplied by the exponential of old maximum minus new, and the
  chunk's exponentials (and logit times exponential) are summed over the rows and added.
-/

namespace Cert.Pool

open Idealize.ShloMosaic Idealize.ShloMosaic.ValueIdx Cert.KernelIdeal Cert.KernelIdeal.Gen

/-- The zero word is zero, the word of minus infinity is the bottom element. -/
theorem ofBits_neg_inf : Ideal.ofBits .f32 0xFF800000#32 = ⊥ := by simp [Ideal.ofBits, Ideal.ieee]

/-- A block of M rows through one dense layer: the product with the weight contracted on its last axis, into
    the zero accumulator, plus the bias recast as one row and stretched over the rows, at (r, j). -/
theorem denseBlock_apply (M K N : ℕ) (D : DotDims ⟨2, ![M, K]⟩ ⟨2, ![N, K]⟩ ⟨2, ![M, N]⟩) (hD : D = DotDims.transposedRhs M K N)
    {φ₁ φ₂ : FTy} (x : FVec Ideal ⟨2, ![M, K]⟩ φ₁) (w : FVec Ideal ⟨2, ![N, K]⟩ φ₂) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) (r : Fin M) (j : Fin N) :
    addf (matmul D none x w (constant ⟨2, ![M, N]⟩ .f32 0x00000000#32)) (broadcastTo ⟨2, ![M, N]⟩ (shapeCast ⟨2, ![1, N]⟩ b h1) h2) (ix2 r j)
      = dense (mat w) (vec b) (row x r) j := by
  subst hD
  rw [addf_apply, broadcastTo_1b_ab_apply, shapeCast_a_1a_apply]
  simp only [matmul]
  rw [matmul_transposedRhs_zero_apply]
  rfl

/-- Row k of a [M, N] array over column j of its reduction along the rows: the inserted index is (k, j). -/
theorem lift_rows {M N : ℕ} (h : Shape.Reduces ⟨2, ![M, N]⟩ [0] ⟨1, ![N]⟩) (o : Fin N) (k : Fin M) :
    h.lift (ix1 o) k = ix2 k o := by
  funext c
  apply Fin.ext
  match c with
  | ⟨0, _⟩ => rfl
  | ⟨1, _⟩ => rfl

/-- Row r of the chunk after the four layers: the five logits of that row. -/
theorem pay14_apply (v3 : Vec Ideal S384x128 .f32) (v5 : Vec Ideal S384 .f32) (v6 : Vec Ideal S256x384 .f32) (v8 : Vec Ideal S256 .f32)
    (v9 : Vec Ideal S128x256 .f32) (v11 : Vec Ideal S128 .f32) (v12 : Vec Ideal S5x128 .f32) (v14 : Vec Ideal S5 .f32)
    (x : Vec Ideal S1000x128 .f32) (r : Fin 1000) (o : Fin 5) :
    k0_pay14 (F := Ideal) (k0_pay4 v3) v5 (k0_pay5 v6) v8 (k0_pay6 v9) v11 (k0_pay7 v12) v14 x (ix2 r o)
      = logit (mat v3) (vec v5) (mat v6) (vec v8) (mat v9) (vec v11) (mat v12) (vec v14) (row x r) o := by
  unfold k0_pay14 k0_pay4 k0_pay5 k0_pay6 k0_pay7
  dsimp only
  refine (denseBlock_apply 1000 128 5 _ rfl _ _ v14 _ _ r o).trans ?_
  unfold logit
  refine congrArg (fun y => dense (mat v12) (vec v14) y o) ?_
  funext j
  show max (addf (matmul _ none _ _ _) (broadcastTo _ (shapeCast _ v11 _) _) (ix2 r j)) (Ideal.ofBits .f32 0x00000000#32) = _
  rw [Ideal.ofBits_zero_f32]
  refine congrArg (fun y => max y 0) ?_
  refine (denseBlock_apply 1000 256 128 _ rfl _ _ v11 _ _ r j).trans ?_
  refine congrArg (fun y => dense (mat v9) (vec v11) y j) ?_
  funext j2
  refine (denseBlock_apply 1000 384 256 _ rfl _ _ v8 _ _ r j2).trans ?_
  refine congrArg (fun y => dense (mat v6) (vec v8) y j2) ?_
  funext j3
  refine (denseBlock_apply 1000 128 384 _ rfl _ _ v5 _ _ r j3).trans ?_
  refine congrArg (fun y => dense (mat v3) (vec v5) y j3) ?_
  funext k
  show shapeCast S1000x128 x _ (ix2 r k) = x (ix2 r k)
  rw [shapeCast_self]

/-- The scaled logits: the scale of column o times the logit. -/
theorem pay15_apply (v3 : Vec Ideal S384x128 .f32) (v5 : Vec Ideal S384 .f32) (v6 : Vec Ideal S256x384 .f32) (v8 : Vec Ideal S256 .f32)
    (v9 : Vec Ideal S128x256 .f32) (v11 : Vec Ideal S128 .f32) (v12 : Vec Ideal S5x128 .f32) (v14 : Vec Ideal S5 .f32) (v15 : Vec Ideal S5 .f32)
    (x : Vec Ideal S1000x128 .f32) (r : Fin 1000) (o : Fin 5) :
    k0_pay15 (F := Ideal) (k0_pay4 v3) v5 (k0_pay5 v6) v8 (k0_pay6 v9) v11 (k0_pay7 v12) v14 v15 x (ix2 r o)
      = v15 (ix1 o) * logit (mat v3) (vec v5) (mat v6) (vec v8) (mat v9) (vec v11) (mat v12) (vec v14) (row x r) o := by
  unfold k0_pay15
  try dsimp only
  show broadcastTo S1000x5 (shapeCast S1x5 v15 _) _ (ix2 r o) * k0_pay14 (F := Ideal) (k0_pay4 v3) v5 (k0_pay5 v6) v8 (k0_pay6 v9) v11 (k0_pay7 v12) v14 x (ix2 r o) = _
  rw [broadcastTo_1b_ab_apply, shapeCast_a_1a_apply, pay14_apply]

/-- The new running maximum of column o: the old one against the maximum of the chunk's scaled logits. -/
theorem pay16_apply (v3 : Vec Ideal S384x128 .f32) (v5 : Vec Ideal S384 .f32) (v6 : Vec Ideal S256x384 .f32) (v8 : Vec Ideal S256 .f32)
    (v9 : Vec Ideal S128x256 .f32) (v11 : Vec Ideal S128 .f32) (v12 : Vec Ideal S5x128 .f32) (v14 : Vec Ideal S5 .f32) (v15 : Vec Ideal S5 .f32)
    (x : Vec Ideal S1000x128 .f32) (m : Vec Ideal S1x5 .f32) (o : Fin 5) :
    k0_pay16 (F := Ideal) (k0_pay4 v3) v5 (k0_pay5 v6) v8 (k0_pay6 v9) v11 (k0_pay7 v12) v14 v15 x m (ix2 (0 : Fin 1) o)
      = max (m (ix2 (0 : Fin 1) o)) ((Finset.univ : Finset (Fin 1000)).fold max ⊥
          (fun r => v15 (ix1 o) * logit (mat v3) (vec v5) (mat v6) (vec v8) (mat v9) (vec v11) (mat v12) (vec v14) (row x r) o)) := by
  unfold k0_pay16
  try dsimp only
  show max (m (ix2 (0 : Fin 1) o)) (shapeCast S1x5 (multiReduction (F := Ideal) .maximumf [0] S5 (k0_pay15 (F := Ideal) (k0_pay4 v3) v5 (k0_pay5 v6) v8 (k0_pay6 v9) v11 (k0_pay7 v12) v14 v15 x) 0xFF800000#32 reduces_S1000x5_S5 (.inl rfl) rfl) _ (ix2 (0 : Fin 1) o)) = _
  rw [shapeCast_a_1a_apply]
  refine congrArg (fun y => max (m (ix2 (0 : Fin 1) o)) y) ?_
  refine (Ideal.multiReduction_maximumf_single _ _ reduces_S1000x5_S5 _ _ (ix1 o)).trans ?_
  have hf : (k0_pay15 (F := Ideal) (k0_pay4 v3) v5 (k0_pay5 v6) v8 (k0_pay6 v9) v11 (k0_pay7 v12) v14 v15 x ∘ (reduces_S1000x5_S5).lift (ix1 o))
      = fun r : Fin 1000 => v15 (ix1 o) * logit (mat v3) (vec v5) (mat v6) (vec v8) (mat v9) (vec v11) (mat v12) (vec v14) (row x r) o :=
    funext fun r => (congrArg (k0_pay15 (F := Ideal) (k0_pay4 v3) v5 (k0_pay5 v6) v8 (k0_pay6 v9) v11 (k0_pay7 v12) v14 v15 x) (lift_rows _ o r)).trans
      (pay15_apply v3 v5 v6 v8 v9 v11 v12 v14 v15 x r o)
  have hb : FloatOps.ofBits (F := Ideal) .f32 0xFF800000#32 = (⊥ : EReal) := ofBits_neg_inf
  exact congrArg₂ (fun b f => Finset.fold max b f (Finset.univ : Finset (Fin 1000))) hb hf

/-- The factor that moves the old sums to the new maximum. -/
theorem pay17_apply (v3 : Vec Ideal S384x128 .f32) (v5 : Vec Ideal S384 .f32) (v6 : Vec Ideal S256x384 .f32) (v8 : Vec Ideal S256 .f32)
    (v9 : Vec Ideal S128x256 .f32) (v11 : Vec Ideal S128 .f32) (v12 : Vec Ideal S5x128 .f32) (v14 : Vec Ideal S5 .f32) (v15 : Vec Ideal S5 .f32)
    (x : Vec Ideal S1000x128 .f32) (m m' : Vec Ideal S1x5 .f32) (o : Fin 5) :
    k0_pay17 (F := Ideal) (k0_pay4 v3) v5 (k0_pay5 v6) v8 (k0_pay6 v9) v11 (k0_pay7 v12) v14 v15 x m m' (ix2 (0 : Fin 1) o)
      = Ideal.exp (m' (ix2 (0 : Fin 1) o) - k0_pay16 (F := Ideal) (k0_pay4 v3) v5 (k0_pay5 v6) v8 (k0_pay6 v9) v11 (k0_pay7 v12) v14 v15 x m (ix2 (0 : Fin 1) o)) := rfl

/-- The exponentials of the chunk against the new maximum. -/
theorem pay18_apply (v3 : Vec Ideal S384x128 .f32) (v5 : Vec Ideal S384 .f32) (v6 : Vec Ideal S256x384 .f32) (v8 : Vec Ideal S256 .f32)
    (v9 : Vec Ideal S128x256 .f32) (v11 : Vec Ideal S128 .f32) (v12 : Vec Ideal S5x128 .f32) (v14 : Vec Ideal S5 .f32) (v15 : Vec Ideal S5 .f32)
    (x : Vec Ideal S1000x128 .f32) (m : Vec Ideal S1x5 .f32) (r : Fin 1000) (o : Fin 5) :
    k0_pay18 (F := Ideal) (k0_pay4 v3) v5 (k0_pay5 v6) v8 (k0_pay6 v9) v11 (k0_pay7 v12) v14 v15 x m (ix2 r o)
      = Ideal.exp (v15 (ix1 o) * logit (mat v3) (vec v5) (mat v6) (vec v8) (mat v9) (vec v11) (mat v12) (vec v14) (row x r) o
          - k0_pay16 (F := Ideal) (k0_pay4 v3) v5 (k0_pay5 v6) v8 (k0_pay6 v9) v11 (k0_pay7 v12) v14 v15 x m (ix2 (0 : Fin 1) o)) := by
  unfold k0_pay18
  try dsimp only
  show Ideal.exp (k0_pay15 (F := Ideal) (k0_pay4 v3) v5 (k0_pay5 v6) v8 (k0_pay6 v9) v11 (k0_pay7 v12) v14 v15 x (ix2 r o)
      - broadcastTo S1000x5 (k0_pay16 (F := Ideal) (k0_pay4 v3) v5 (k0_pay5 v6) v8 (k0_pay6 v9) v11 (k0_pay7 v12) v14 v15 x m) _ (ix2 r o)) = _
  rw [broadcastTo_1b_ab_apply, pay15_apply]

/-- The new running sum: the old one rescaled plus the sum of the chunk's exponentials. -/
theorem pay8_apply (c : FVec Ideal S1x5 .f32) (e : FVec Ideal S1000x5 .f32) (l : Vec Ideal S1x5 .f32) (o : Fin 5) :
    k0_pay8 (F := Ideal) c e l (ix2 (0 : Fin 1) o)
      = c (ix2 (0 : Fin 1) o) * l (ix2 (0 : Fin 1) o) + ∑ r : Fin 1000, e (ix2 r o) := by
  unfold k0_pay8
  try dsimp only
  rw [shapeCast_self]
  show c (ix2 (0 : Fin 1) o) * l (ix2 (0 : Fin 1) o)
      + shapeCast S1x5 (multiReduction (F := Ideal) .add [0] S5 e 0x00000000#32 reduces_S1000x5_S5 (.inl rfl) rfl) _ (ix2 (0 : Fin 1) o) = _
  rw [shapeCast_a_1a_apply]
  refine congrArg (fun y => c (ix2 (0 : Fin 1) o) * l (ix2 (0 : Fin 1) o) + y) ?_
  refine (Ideal.multiReduction_add_single e _ reduces_S1000x5_S5 _ _ (ix1 o)).trans ?_
  exact Finset.sum_congr rfl fun r _ => congrArg e (lift_rows _ o r)

/-- The new running weighted sum: the old one rescaled plus the sum of logit times exponential over the chunk. -/
theorem pay9_apply (p : FVec Ideal S1000x5 .f32) (c : FVec Ideal S1x5 .f32) (e : FVec Ideal S1000x5 .f32) (a : Vec Ideal S1x5 .f32) (o : Fin 5) :
    k0_pay9 (F := Ideal) p c e a (ix2 (0 : Fin 1) o)
      = c (ix2 (0 : Fin 1) o) * a (ix2 (0 : Fin 1) o) + ∑ r : Fin 1000, p (ix2 r o) * e (ix2 r o) := by
  unfold k0_pay9
  try dsimp only
  rw [shapeCast_self]
  show c (ix2 (0 : Fin 1) o) * a (ix2 (0 : Fin 1) o)
      + shapeCast S1x5 (multiReduction (F := Ideal) .add [0] S5 (mulf p e) 0x00000000#32 reduces_S1000x5_S5 (.inl rfl) rfl) _ (ix2 (0 : Fin 1) o) = _
  rw [shapeCast_a_1a_apply]
  refine congrArg (fun y => c (ix2 (0 : Fin 1) o) * a (ix2 (0 : Fin 1) o) + y) ?_
  refine (Ideal.multiReduction_add_single (mulf p e) _ reduces_S1000x5_S5 _ _ (ix1 o)).trans ?_
  exact Finset.sum_congr rfl fun r _ => congrArg (fun i => p i * e i) (lift_rows _ o r)

/-- One trip of the chunk loop, read at column o, is the update of the running state by the chunk's logits. -/
theorem trip_upd (v3 : Vec Ideal Cert.KernelIdeal.S384x128 .f32) (v5 : Vec Ideal Cert.KernelIdeal.S384 .f32) (v6 : Vec Ideal Cert.KernelIdeal.S256x384 .f32) (v8 : Vec Ideal Cert.KernelIdeal.S256 .f32) (v9 : Vec Ideal Cert.KernelIdeal.S128x256 .f32) (v11 : Vec Ideal Cert.KernelIdeal.S128 .f32) (v12 : Vec Ideal Cert.KernelIdeal.S5x128 .f32) (v14 v15 : Vec Ideal Cert.KernelIdeal.S5 .f32) (x : Vec Ideal Cert.KernelIdeal.S1000x128 .f32) (m l a : Vec Ideal Cert.KernelIdeal.S1x5 .f32) (o : Fin 5) :
      (K.newM v3 v5 v6 v8 v9 v11 v12 v14 v15 x m (ix2 (0 : Fin 1) o), K.newL v3 v5 v6 v8 v9 v11 v12 v14 v15 x m l (ix2 (0 : Fin 1) o), K.newA v3 v5 v6 v8 v9 v11 v12 v14 v15 x m a (ix2 (0 : Fin 1) o))
        = upd (v15 (ix1 o)) (fun r : Fin 1000 => logit (mat v3) (vec v5) (mat v6) (vec v8) (mat v9) (vec v11) (mat v12) (vec v14) (row x r) o) (m (ix2 (0 : Fin 1) o), l (ix2 (0 : Fin 1) o), a (ix2 (0 : Fin 1) o)) := by
  have h16 := pay16_apply v3 v5 v6 v8 v9 v11 v12 v14 v15 x m o
  have hM : K.newM v3 v5 v6 v8 v9 v11 v12 v14 v15 x m (ix2 (0 : Fin 1) o)
      = k0_pay16 (F := Ideal) (k0_pay4 v3) v5 (k0_pay5 v6) v8 (k0_pay6 v9) v11 (k0_pay7 v12) v14 v15 x m (ix2 (0 : Fin 1) o) := by
    unfold K.newM k0_pay10
    try dsimp only
    rw [shapeCast_self]
  have hL : K.newL v3 v5 v6 v8 v9 v11 v12 v14 v15 x m l (ix2 (0 : Fin 1) o)
      = Ideal.exp (m (ix2 (0 : Fin 1) o) - k0_pay16 (F := Ideal) (k0_pay4 v3) v5 (k0_pay5 v6) v8 (k0_pay6 v9) v11 (k0_pay7 v12) v14 v15 x m (ix2 (0 : Fin 1) o)) * l (ix2 (0 : Fin 1) o)
        + ∑ r : Fin 1000, Ideal.exp (v15 (ix1 o) * logit (mat v3) (vec v5) (mat v6) (vec v8) (mat v9) (vec v11) (mat v12) (vec v14) (row x r) o
            - k0_pay16 (F := Ideal) (k0_pay4 v3) v5 (k0_pay5 v6) v8 (k0_pay6 v9) v11 (k0_pay7 v12) v14 v15 x m (ix2 (0 : Fin 1) o)) := by
    unfold K.newL
    rw [pay8_apply, pay17_apply]
    congr 1
    exact Finset.sum_congr rfl fun r _ => pay18_apply v3 v5 v6 v8 v9 v11 v12 v14 v15 x m r o
  have hA : K.newA v3 v5 v6 v8 v9 v11 v12 v14 v15 x m a (ix2 (0 : Fin 1) o)
      = Ideal.exp (m (ix2 (0 : Fin 1) o) - k0_pay16 (F := Ideal) (k0_pay4 v3) v5 (k0_pay5 v6) v8 (k0_pay6 v9) v11 (k0_pay7 v12) v14 v15 x m (ix2 (0 : Fin 1) o)) * a (ix2 (0 : Fin 1) o)
        + ∑ r : Fin 1000, logit (mat v3) (vec v5) (mat v6) (vec v8) (mat v9) (vec v11) (mat v12) (vec v14) (row x r) o * Ideal.exp (v15 (ix1 o) * logit (mat v3) (vec v5) (mat v6) (vec v8) (mat v9) (vec v11) (mat v12) (vec v14) (row x r) o
            - k0_pay16 (F := Ideal) (k0_pay4 v3) v5 (k0_pay5 v6) v8 (k0_pay6 v9) v11 (k0_pay7 v12) v14 v15 x m (ix2 (0 : Fin 1) o)) := by
    unfold K.newA
    rw [pay9_apply, pay17_apply]
    congr 1
    exact Finset.sum_congr rfl fun r _ => by rw [pay14_apply, pay18_apply]
  rw [hM, hL, hA, h16]
  rfl

end Cert.Pool

end
-- ==== Proof.KChunk.lean ====
import proofs.«146061_j43422119363005_2_alg».proof.Proof.Trip
import proofs.«146061_j43422119363005_2_alg».proof.Proof.KTrip

set_option maxRecDepth 16384

noncomputable section

/-!
  The chunk loop of one grid point.

  A grid point holds a tile of 4000 rows and walks it in four chunks of 1000; chunk k is rows
  1000 k … 1000 k + 999 of the tile.  Each trip updates the three carried rows as Cert.Pool.upd says
  (one trip read at a column), so if the carried rows, read at a column, are the running state after
  q chunks of a sequence of logits P, and the tile's rows carry the next 4000 logits of P, then after
  the loop they are the running state after q + 4 chunks.  The rows start as (-∞, 0, 0), the state
  after no chunk, and end stretched over eight rows.
-/

namespace Cert.Pool

open Idealize.ShloMosaic Idealize.ShloMosaic.ValueIdx Cert.KernelIdeal Cert.KernelIdeal.Gen

/-- The chunk loop makes four trips. -/
theorem trips_eq : k0_t1_loop.trips = 4 := by decide

/-- Row r of chunk k of a tile is row 1000 k + r of the tile. -/
theorem xchunk_row (X : Vec Ideal S4000x128 .f32) (k : Fin k0_t1_loop.trips) (r : Fin 1000) (f : Fin 128) :
    K.xchunk X k (ix2 r f) = X (ix2 ⟨1000 * k.val + r.val, by have := k.isLt; have := r.isLt; have h4 : k0_t1_loop.trips = 4 := trips_eq; omega⟩ f) := by
  unfold K.xchunk
  show X ((Rect.unit (s := S4000x128) (k0_off1 k) S1000x128.size (k0_off1_inb k)).idx (ix2 r f)) = _
  refine congrArg X (funext fun a => Fin.ext ?_)
  rw [LoadRect.idx_apply]
  match a with
  | ⟨0, _⟩ => simp [Rect.unit, k0_off1_eq k]
  | ⟨1, _⟩ => simp [Rect.unit, k0_off1_eq k]

/-- The carried rows after the first j trips, read at column o, are the running state after q + j chunks. -/
theorem stAfter_chunk_aux (v3 : Vec Ideal S384x128 .f32) (v5 : Vec Ideal S384 .f32) (v6 : Vec Ideal S256x384 .f32) (v8 : Vec Ideal S256 .f32) (v9 : Vec Ideal S128x256 .f32) (v11 : Vec Ideal S128 .f32) (v12 : Vec Ideal S5x128 .f32) (v14 v15 : Vec Ideal S5 .f32) (X : Vec Ideal S4000x128 .f32) (s0 : Vec Ideal S1x5 .f32 × Vec Ideal S1x5 .f32 × Vec Ideal S1x5 .f32) (o : Fin 5) (P : ℕ → EReal) (q : ℕ)
    (hP : ∀ (k r : ℕ) (hk : k < 4) (hr : r < 1000), logit (mat v3) (vec v5) (mat v6) (vec v8) (mat v9) (vec v11) (mat v12) (vec v14) (row X ⟨1000 * k + r, by omega⟩) o = P ((q + k) * 1000 + r))
    (hs : (s0.1 (ix2 (0 : Fin 1) o), s0.2.1 (ix2 (0 : Fin 1) o), s0.2.2 (ix2 (0 : Fin 1) o)) = chunkState (v15 (ix1 o)) P 1000 q)
    (j : ℕ) (hj : j ≤ k0_t1_loop.trips) :
    ((K.stAfter v3 v5 v6 v8 v9 v11 v12 v14 v15 X s0 j).1 (ix2 (0 : Fin 1) o), (K.stAfter v3 v5 v6 v8 v9 v11 v12 v14 v15 X s0 j).2.1 (ix2 (0 : Fin 1) o), (K.stAfter v3 v5 v6 v8 v9 v11 v12 v14 v15 X s0 j).2.2 (ix2 (0 : Fin 1) o)) = chunkState (v15 (ix1 o)) P 1000 (q + j) := by
  induction j with
  | zero => exact hs
  | succ j ih =>
    have h : j < k0_t1_loop.trips := hj
    have h4 : j < 4 := by have := trips_eq; omega
    have ih' := ih (Nat.le_of_lt h)
    rw [K.stAfter, dif_pos h]
    refine (trip_upd v3 v5 v6 v8 v9 v11 v12 v14 v15 (K.xchunk X ⟨j, h⟩) _ _ _ o).trans ?_
    rw [ih']
    show _ = upd (v15 (ix1 o)) (fun r : Fin 1000 => P ((q + j) * 1000 + r.val)) (chunkState (v15 (ix1 o)) P 1000 (q + j))
    refine congrArg (fun p => upd (v15 (ix1 o)) p (chunkState (v15 (ix1 o)) P 1000 (q + j))) ?_
    funext r
    have hrow : row (K.xchunk X ⟨j, h⟩) r = row X ⟨1000 * j + r.val, by have := r.isLt; omega⟩ :=
      funext fun f => xchunk_row X ⟨j, h⟩ r f
    rw [hrow]
    exact hP j r.val h4 r.isLt

/-- The carried rows after the whole chunk loop of a grid point. -/
theorem stAfter_chunk (v3 : Vec Ideal S384x128 .f32) (v5 : Vec Ideal S384 .f32) (v6 : Vec Ideal S256x384 .f32) (v8 : Vec Ideal S256 .f32) (v9 : Vec Ideal S128x256 .f32) (v11 : Vec Ideal S128 .f32) (v12 : Vec Ideal S5x128 .f32) (v14 v15 : Vec Ideal S5 .f32) (X : Vec Ideal S4000x128 .f32) (s0 : Vec Ideal S1x5 .f32 × Vec Ideal S1x5 .f32 × Vec Ideal S1x5 .f32) (o : Fin 5) (P : ℕ → EReal) (q : ℕ)
    (hP : ∀ (k r : ℕ) (hk : k < 4) (hr : r < 1000), logit (mat v3) (vec v5) (mat v6) (vec v8) (mat v9) (vec v11) (mat v12) (vec v14) (row X ⟨1000 * k + r, by omega⟩) o = P ((q + k) * 1000 + r))
    (hs : (s0.1 (ix2 (0 : Fin 1) o), s0.2.1 (ix2 (0 : Fin 1) o), s0.2.2 (ix2 (0 : Fin 1) o)) = chunkState (v15 (ix1 o)) P 1000 q) :
    ((K.stAfter v3 v5 v6 v8 v9 v11 v12 v14 v15 X s0 k0_t1_loop.trips).1 (ix2 (0 : Fin 1) o), (K.stAfter v3 v5 v6 v8 v9 v11 v12 v14 v15 X s0 k0_t1_loop.trips).2.1 (ix2 (0 : Fin 1) o), (K.stAfter v3 v5 v6 v8 v9 v11 v12 v14 v15 X s0 k0_t1_loop.trips).2.2 (ix2 (0 : Fin 1) o)) = chunkState (v15 (ix1 o)) P 1000 (q + 4) :=
  stAfter_chunk_aux v3 v5 v6 v8 v9 v11 v12 v14 v15 X s0 o P q hP hs k0_t1_loop.trips (Nat.le_refl _)

/-- The carried rows as first stored: the state after no chunk. -/
theorem initRows_apply (o : Fin 5) :
    ((k0_pay1 (F := Ideal)) (ix2 (0 : Fin 1) o), (k0_pay2 (F := Ideal)) (ix2 (0 : Fin 1) o), (k0_pay3 (F := Ideal)) (ix2 (0 : Fin 1) o))
      = ((⊥ : EReal), (0 : EReal), (0 : EReal)) := by
  have h1 : (k0_pay1 (F := Ideal)) (ix2 (0 : Fin 1) o) = (⊥ : EReal) := by
    unfold k0_pay1
    try dsimp only
    rw [shapeCast_self]
    exact ofBits_neg_inf
  have h2 : (k0_pay2 (F := Ideal)) (ix2 (0 : Fin 1) o) = (0 : EReal) := by
    unfold k0_pay2
    try dsimp only
    rw [shapeCast_self]
    exact Ideal.ofBits_zero_f32
  have h3 : (k0_pay3 (F := Ideal)) (ix2 (0 : Fin 1) o) = (0 : EReal) := by
    unfold k0_pay3
    try dsimp only
    rw [shapeCast_self]
    exact Ideal.ofBits_zero_f32
  rw [h1, h2, h3]

/-- A carried row stretched over eight rows reads, at every row, the carried row. -/
theorem stretch11_apply (v : Vec Ideal S1x5 .f32) (r : Fin 8) (o : Fin 5) :
    k0_pay11 (F := Ideal) v (ix2 r o) = v (ix2 (0 : Fin 1) o) := by
  unfold k0_pay11
  try dsimp only
  rw [broadcastTo_1b_ab_apply, shapeCast_self]

theorem stretch12_apply (v : Vec Ideal S1x5 .f32) (r : Fin 8) (o : Fin 5) :
    k0_pay12 (F := Ideal) v (ix2 r o) = v (ix2 (0 : Fin 1) o) := by
  unfold k0_pay12
  try dsimp only
  rw [broadcastTo_1b_ab_apply, shapeCast_self]

theorem stretch13_apply (v : Vec Ideal S1x5 .f32) (r : Fin 8) (o : Fin 5) :
    k0_pay13 (F := Ideal) v (ix2 r o) = v (ix2 (0 : Fin 1) o) := by
  unfold k0_pay13
  try dsimp only
  rw [broadcastTo_1b_ab_apply, shapeCast_self]

end Cert.Pool

end
-- ==== Proof.KBlocks.lean ====
import proofs.«146061_j43422119363005_2_alg».proof.Proof.Gen.KernelIdeal.Frame
import Idealize.ShloMosaic.Lib.Pipeline.Value
import Idealize.ShloMosaic.Lib.ValueIdx

set_option maxRecDepth 16384

noncomputable section

/-!
  The pipeline's blocks read at an index.

  The grid has 2 × 25 = 50 positions; position t has coordinates (t / 25, t % 25).  The feature
  rows are staged in blocks of 4000 rows, block t at position t, so row y of the block at position t
  is row 4000 t + y of the array.  The nine weight and bias arrays are staged whole: their block is
  the array.  Each of the three outputs has 16 rows in two blocks of 8, block t / 25 at position t,
  written back at the last position of each half (t % 25 = 24); the two blocks cover the array.
  A block's coordinate on an axis is always block index × block size + the coordinate inside the block.
-/

namespace Cert.Pool.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] (m : (ℓ : Loc nD τ sig) → Buf (Elt F) ℓ)

/-! ## The feature rows: window 0 -/

/-- The feature window's block index at position t is (t, 0). -/
theorem idx_facts0 : ∀ t : Fin cfg0.N, win0_0.index t (0 : Fin 2) = t.val ∧ win0_0.index t (1 : Fin 2) = 0 :=
  (by decide +kernel : ∀ t : Fin grid0.N, _)

/-- Row y of the block of features at position t is row 4000 t + y of the array. -/
theorem iblk0_apply (c : Dev nD) (t : Fin cfg0.N) (y : Fin 4000) (f : Fin 128) :
    (iblk m c 0 t : S4000x128.Idx → Elt F .f32) (ix2 y f)
      = (V m c main_v0 : S200000x128.Idx → Elt F .f32) (ix2 ⟨4000 * t.val + y.val, by have := t.isLt; have := y.isLt; have : cfg0.N = 50 := N_0; omega⟩ f) := by
  obtain ⟨e0, e1⟩ := idx_facts0 t
  show V m c main_v0 (((cfg0.win 0).blk t).view.emb (ix2 y f)) = _
  refine congrArg (V m c main_v0) ?_
  funext a; apply Fin.ext
  match a with
  | ⟨0, _⟩ => show win0_0.index t (0 : Fin 2) * 4000 + 1 * y.val = 4000 * t.val + y.val; omega
  | ⟨1, _⟩ => show win0_0.index t (1 : Fin 2) * 128 + 1 * f.val = f.val; omega

/-! ## The weights and biases: windows 1 to 9, staged whole -/

/-- Window 1's block index is (0, 0) at every position. -/
theorem idx_facts1 : ∀ t : Fin cfg0.N, win0_1.index t (0 : Fin 2) = 0 ∧ win0_1.index t (1 : Fin 2) = 0 :=
  (by decide +kernel : ∀ t : Fin grid0.N, _)

/-- Window 1's block is the whole array, as launched. -/
theorem iblk1_eq (c : Dev nD) (t : Fin cfg0.N) :
    (iblk m c 1 t : S384x128.Idx → Elt F .f32) = (m ((c : Thread nD τ).loc main_arg1) : S384x128.Idx → Elt F .f32) := by
  obtain ⟨e0, e1⟩ := idx_facts1 t
  funext j
  show V m c main_arg1 (((cfg0.win 1).blk t).view.emb j) = _
  rw [V_main_arg1]
  refine congrArg (m ((c : Thread nD τ).loc main_arg1)) ?_
  funext a; apply Fin.ext
  match a with
  | ⟨0, _⟩ => show win0_1.index t (0 : Fin 2) * 384 + 1 * (j 0).val = (j 0).val; omega
  | ⟨1, _⟩ => show win0_1.index t (1 : Fin 2) * 128 + 1 * (j 1).val = (j 1).val; omega

/-- Window 2's block index is 0 at every position. -/
theorem idx_facts2 : ∀ t : Fin cfg0.N, win0_2.index t (0 : Fin 1) = 0 :=
  (by decide +kernel : ∀ t : Fin grid0.N, _)

/-- Window 2's block is the whole array, as launched. -/
theorem iblk2_eq (c : Dev nD) (t : Fin cfg0.N) :
    (iblk m c 2 t : S384.Idx → Elt F .f32) = (m ((c : Thread nD τ).loc main_arg2) : S384.Idx → Elt F .f32) := by
  have e0 := idx_facts2 t
  funext j
  show V m c main_arg2 (((cfg0.win 2).blk t).view.emb j) = _
  rw [V_main_arg2]
  refine congrArg (m ((c : Thread nD τ).loc main_arg2)) ?_
  funext a; apply Fin.ext
  match a with
  | ⟨0, _⟩ => show win0_2.index t (0 : Fin 1) * 384 + 1 * (j 0).val = (j 0).val; omega

/-- Window 3's block index is (0, 0) at every position. -/
theorem idx_facts3 : ∀ t : Fin cfg0.N, win0_3.index t (0 : Fin 2) = 0 ∧ win0_3.index t (1 : Fin 2) = 0 :=
  (by decide +kernel : ∀ t : Fin grid0.N, _)

/-- Window 3's block is the whole array, as launched. -/
theorem iblk3_eq (c : Dev nD) (t : Fin cfg0.N) :
    (iblk m c 3 t : S256x384.Idx → Elt F .f32) = (m ((c : Thread nD τ).loc main_arg3) : S256x384.Idx → Elt F .f32) := by
  obtain ⟨e0, e1⟩ := idx_facts3 t
  funext j
  show V m c main_arg3 (((cfg0.win 3).blk t).view.emb j) = _
  rw [V_main_arg3]
  refine congrArg (m ((c : Thread nD τ).loc main_arg3)) ?_
  funext a; apply Fin.ext
  match a with
  | ⟨0, _⟩ => show win0_3.index t (0 : Fin 2) * 256 + 1 * (j 0).val = (j 0).val; omega
  | ⟨1, _⟩ => show win0_3.index t (1 : Fin 2) * 384 + 1 * (j 1).val = (j 1).val; omega

/-- Window 4's block index is 0 at every position. -/
theorem idx_facts4 : ∀ t : Fin cfg0.N, win0_4.index t (0 : Fin 1) = 0 :=
  (by decide +kernel : ∀ t : Fin grid0.N, _)

/-- Window 4's block is the whole array, as launched. -/
theorem iblk4_eq (c : Dev nD) (t : Fin cfg0.N) :
    (iblk m c 4 t : S256.Idx → Elt F .f32) = (m ((c : Thread nD τ).loc main_arg4) : S256.Idx → Elt F .f32) := by
  have e0 := idx_facts4 t
  funext j
  show V m c main_arg4 (((cfg0.win 4).blk t).view.emb j) = _
  rw [V_main_arg4]
  refine congrArg (m ((c : Thread nD τ).loc main_arg4)) ?_
  funext a; apply Fin.ext
  match a with
  | ⟨0, _⟩ => show win0_4.index t (0 : Fin 1) * 256 + 1 * (j 0).val = (j 0).val; omega

/-- Window 5's block index is (0, 0) at every position. -/
theorem idx_facts5 : ∀ t : Fin cfg0.N, win0_5.index t (0 : Fin 2) = 0 ∧ win0_5.index t (1 : Fin 2) = 0 :=
  (by decide +kernel : ∀ t : Fin grid0.N, _)

/-- Window 5's block is the whole array, as launched. -/
theorem iblk5_eq (c : Dev nD) (t : Fin cfg0.N) :
    (iblk m c 5 t : S128x256.Idx → Elt F .f32) = (m ((c : Thread nD τ).loc main_arg5) : S128x256.Idx → Elt F .f32) := by
  obtain ⟨e0, e1⟩ := idx_facts5 t
  funext j
  show V m c main_arg5 (((cfg0.win 5).blk t).view.emb j) = _
  rw [V_main_arg5]
  refine congrArg (m ((c : Thread nD τ).loc main_arg5)) ?_
  funext a; apply Fin.ext
  match a with
  | ⟨0, _⟩ => show win0_5.index t (0 : Fin 2) * 128 + 1 * (j 0).val = (j 0).val; omega
  | ⟨1, _⟩ => show win0_5.index t (1 : Fin 2) * 256 + 1 * (j 1).val = (j 1).val; omega

/-- Window 6's block index is 0 at every position. -/
theorem idx_facts6 : ∀ t : Fin cfg0.N, win0_6.index t (0 : Fin 1) = 0 :=
  (by decide +kernel : ∀ t : Fin grid0.N, _)

/-- Window 6's block is the whole array, as launched. -/
theorem iblk6_eq (c : Dev nD) (t : Fin cfg0.N) :
    (iblk m c 6 t : S128.Idx → Elt F .f32) = (m ((c : Thread nD τ).loc main_arg6) : S128.Idx → Elt F .f32) := by
  have e0 := idx_facts6 t
  funext j
  show V m c main_arg6 (((cfg0.win 6).blk t).view.emb j) = _
  rw [V_main_arg6]
  refine congrArg (m ((c : Thread nD τ).loc main_arg6)) ?_
  funext a; apply Fin.ext
  match a with
  | ⟨0, _⟩ => show win0_6.index t (0 : Fin 1) * 128 + 1 * (j 0).val = (j 0).val; omega

/-- Window 7's block index is (0, 0) at every position. -/
theorem idx_facts7 : ∀ t : Fin cfg0.N, win0_7.index t (0 : Fin 2) = 0 ∧ win0_7.index t (1 : Fin 2) = 0 :=
  (by decide +kernel : ∀ t : Fin grid0.N, _)

/-- Window 7's block is the whole array, as launched. -/
theorem iblk7_eq (c : Dev nD) (t : Fin cfg0.N) :
    (iblk m c 7 t : S5x128.Idx → Elt F .f32) = (m ((c : Thread nD τ).loc main_arg7) : S5x128.Idx → Elt F .f32) := by
  obtain ⟨e0, e1⟩ := idx_facts7 t
  funext j
  show V m c main_arg7 (((cfg0.win 7).blk t).view.emb j) = _
  rw [V_main_arg7]
  refine congrArg (m ((c : Thread nD τ).loc main_arg7)) ?_
  funext a; apply Fin.ext
  match a with
  | ⟨0, _⟩ => show win0_7.index t (0 : Fin 2) * 5 + 1 * (j 0).val = (j 0).val; omega
  | ⟨1, _⟩ => show win0_7.index t (1 : Fin 2) * 128 + 1 * (j 1).val = (j 1).val; omega

/-- Window 8's block index is 0 at every position. -/
theorem idx_facts8 : ∀ t : Fin cfg0.N, win0_8.index t (0 : Fin 1) = 0 :=
  (by decide +kernel : ∀ t : Fin grid0.N, _)

/-- Window 8's block is the whole array, as launched. -/
theorem iblk8_eq (c : Dev nD) (t : Fin cfg0.N) :
    (iblk m c 8 t : S5.Idx → Elt F .f32) = (m ((c : Thread nD τ).loc main_arg8) : S5.Idx → Elt F .f32) := by
  have e0 := idx_facts8 t
  funext j
  show V m c main_arg8 (((cfg0.win 8).blk t).view.emb j) = _
  rw [V_main_arg8]
  refine congrArg (m ((c : Thread nD τ).loc main_arg8)) ?_
  funext a; apply Fin.ext
  match a with
  | ⟨0, _⟩ => show win0_8.index t (0 : Fin 1) * 5 + 1 * (j 0).val = (j 0).val; omega

/-- Window 9's block index is 0 at every position. -/
theorem idx_facts9 : ∀ t : Fin cfg0.N, win0_9.index t (0 : Fin 1) = 0 :=
  (by decide +kernel : ∀ t : Fin grid0.N, _)

/-- Window 9's block is the whole array, as launched. -/
theorem iblk9_eq (c : Dev nD) (t : Fin cfg0.N) :
    (iblk m c 9 t : S5.Idx → Elt F .f32) = (m ((c : Thread nD τ).loc main_arg9) : S5.Idx → Elt F .f32) := by
  have e0 := idx_facts9 t
  funext j
  show V m c main_arg9 (((cfg0.win 9).blk t).view.emb j) = _
  rw [V_main_arg9]
  refine congrArg (m ((c : Thread nD τ).loc main_arg9)) ?_
  funext a; apply Fin.ext
  match a with
  | ⟨0, _⟩ => show win0_9.index t (0 : Fin 1) * 5 + 1 * (j 0).val = (j 0).val; omega

/-! ## The three outputs: windows 10, 11, 12 -/

/-- Output window 10's block index at position t is (t / 25, 0). -/
theorem idx_facts10 : ∀ t : Fin cfg0.N, win0_10.index t (0 : Fin 2) = t.val / 25 ∧ win0_10.index t (1 : Fin 2) = 0 :=
  (by decide +kernel : ∀ t : Fin grid0.N, _)

/-- Row y0 of output window 10's block at position t is row 8 (t / 25) + y0 of the array. -/
theorem oblk10_emb (t : Fin cfg0.N) (y0 : Fin 8) (y1 : Fin 5) :
    ((cfg0.win 10).blk t).view.emb (ix2 y0 y1)
      = (ix2 ⟨8 * (t.val / 25) + y0.val, by have := t.isLt; have := y0.isLt; have : cfg0.N = 50 := N_0; omega⟩ y1 : S16x5.Idx) := by
  obtain ⟨e0, e1⟩ := idx_facts10 t
  funext a; apply Fin.ext
  match a with
  | ⟨0, _⟩ => show win0_10.index t (0 : Fin 2) * 8 + 1 * y0.val = 8 * (t.val / 25) + y0.val; omega
  | ⟨1, _⟩ => show win0_10.index t (1 : Fin 2) * 5 + 1 * y1.val = y1.val; omega

/-- An index of the array is in position t's block iff each coordinate is in the block's range on its axis. -/
theorem mem_blk10 (t : Fin cfg0.N) (i : S16x5.Idx) :
    i ∈ ((cfg0.win 10).blk t).view.set ↔ ∀ a : Fin 2, win0_10.index t a * S8x5.size a ≤ (i a).val ∧ (i a).val < win0_10.index t a * S8x5.size a + S8x5.size a := by
  show i ∈ ((View.whole main_v1_0).slice (win0_10.rect t)).set ↔ _
  rw [View.set_slice_whole, Rect.mem_set_unit]
  exact Iff.rfl

/-- Every index of output 0 is in the block of a position that writes back: the last position of its half. -/
theorem oblk10_cover (i : S16x5.Idx) : ∃ t : Fin cfg0.N, (cfg0.win 10).flush t = true ∧ i ∈ ((cfg0.win 10).blk t).view.set := by
  have hi0 : (i 0).val < 16 := (i 0).isLt
  have hi1 : (i 1).val < 5 := (i 1).isLt
  have hN : cfg0.N = 50 := N_0
  refine ⟨⟨25 * ((i 0).val / 8) + 24, by omega⟩, (flush0_10 _).mpr (by show (25 * ((i 0).val / 8) + 24) % 25 = 24; omega), ?_⟩
  rw [mem_blk10]
  obtain ⟨e0, e1⟩ := idx_facts10 ⟨25 * ((i 0).val / 8) + 24, by omega⟩
  intro a
  match a with
  | ⟨0, _⟩ =>
    show win0_10.index ⟨25 * ((i 0).val / 8) + 24, _⟩ (0 : Fin 2) * 8 ≤ (i 0).val ∧ (i 0).val < win0_10.index ⟨25 * ((i 0).val / 8) + 24, _⟩ (0 : Fin 2) * 8 + 8
    rw [e0]
    show (25 * ((i 0).val / 8) + 24) / 25 * 8 ≤ (i 0).val ∧ (i 0).val < (25 * ((i 0).val / 8) + 24) / 25 * 8 + 8
    omega
  | ⟨1, _⟩ =>
    show win0_10.index ⟨25 * ((i 0).val / 8) + 24, _⟩ (1 : Fin 2) * 5 ≤ (i 1).val ∧ (i 1).val < win0_10.index ⟨25 * ((i 0).val / 8) + 24, _⟩ (1 : Fin 2) * 5 + 5
    rw [e1]
    omega

/-- Output window 11's block index at position t is (t / 25, 0). -/
theorem idx_facts11 : ∀ t : Fin cfg0.N, win0_11.index t (0 : Fin 2) = t.val / 25 ∧ win0_11.index t (1 : Fin 2) = 0 :=
  (by decide +kernel : ∀ t : Fin grid0.N, _)

/-- Row y0 of output window 11's block at position t is row 8 (t / 25) + y0 of the array. -/
theorem oblk11_emb (t : Fin cfg0.N) (y0 : Fin 8) (y1 : Fin 5) :
    ((cfg0.win 11).blk t).view.emb (ix2 y0 y1)
      = (ix2 ⟨8 * (t.val / 25) + y0.val, by have := t.isLt; have := y0.isLt; have : cfg0.N = 50 := N_0; omega⟩ y1 : S16x5.Idx) := by
  obtain ⟨e0, e1⟩ := idx_facts11 t
  funext a; apply Fin.ext
  match a with
  | ⟨0, _⟩ => show win0_11.index t (0 : Fin 2) * 8 + 1 * y0.val = 8 * (t.val / 25) + y0.val; omega
  | ⟨1, _⟩ => show win0_11.index t (1 : Fin 2) * 5 + 1 * y1.val = y1.val; omega

/-- An index of the array is in position t's block iff each coordinate is in the block's range on its axis. -/
theorem mem_blk11 (t : Fin cfg0.N) (i : S16x5.Idx) :
    i ∈ ((cfg0.win 11).blk t).view.set ↔ ∀ a : Fin 2, win0_11.index t a * S8x5.size a ≤ (i a).val ∧ (i a).val < win0_11.index t a * S8x5.size a + S8x5.size a := by
  show i ∈ ((View.whole main_v1_1).slice (win0_11.rect t)).set ↔ _
  rw [View.set_slice_whole, Rect.mem_set_unit]
  exact Iff.rfl

/-- Every index of output 1 is in the block of a position that writes back: the last position of its half. -/
theorem oblk11_cover (i : S16x5.Idx) : ∃ t : Fin cfg0.N, (cfg0.win 11).flush t = true ∧ i ∈ ((cfg0.win 11).blk t).view.set := by
  have hi0 : (i 0).val < 16 := (i 0).isLt
  have hi1 : (i 1).val < 5 := (i 1).isLt
  have hN : cfg0.N = 50 := N_0
  refine ⟨⟨25 * ((i 0).val / 8) + 24, by omega⟩, (flush0_11 _).mpr (by show (25 * ((i 0).val / 8) + 24) % 25 = 24; omega), ?_⟩
  rw [mem_blk11]
  obtain ⟨e0, e1⟩ := idx_facts11 ⟨25 * ((i 0).val / 8) + 24, by omega⟩
  intro a
  match a with
  | ⟨0, _⟩ =>
    show win0_11.index ⟨25 * ((i 0).val / 8) + 24, _⟩ (0 : Fin 2) * 8 ≤ (i 0).val ∧ (i 0).val < win0_11.index ⟨25 * ((i 0).val / 8) + 24, _⟩ (0 : Fin 2) * 8 + 8
    rw [e0]
    show (25 * ((i 0).val / 8) + 24) / 25 * 8 ≤ (i 0).val ∧ (i 0).val < (25 * ((i 0).val / 8) + 24) / 25 * 8 + 8
    omega
  | ⟨1, _⟩ =>
    show win0_11.index ⟨25 * ((i 0).val / 8) + 24, _⟩ (1 : Fin 2) * 5 ≤ (i 1).val ∧ (i 1).val < win0_11.index ⟨25 * ((i 0).val / 8) + 24, _⟩ (1 : Fin 2) * 5 + 5
    rw [e1]
    omega

/-- Output window 12's block index at position t is (t / 25, 0). -/
theorem idx_facts12 : ∀ t : Fin cfg0.N, win0_12.index t (0 : Fin 2) = t.val / 25 ∧ win0_12.index t (1 : Fin 2) = 0 :=
  (by decide +kernel : ∀ t : Fin grid0.N, _)

/-- Row y0 of output window 12's block at position t is row 8 (t / 25) + y0 of the array. -/
theorem oblk12_emb (t : Fin cfg0.N) (y0 : Fin 8) (y1 : Fin 5) :
    ((cfg0.win 12).blk t).view.emb (ix2 y0 y1)
      = (ix2 ⟨8 * (t.val / 25) + y0.val, by have := t.isLt; have := y0.isLt; have : cfg0.N = 50 := N_0; omega⟩ y1 : S16x5.Idx) := by
  obtain ⟨e0, e1⟩ := idx_facts12 t
  funext a; apply Fin.ext
  match a with
  | ⟨0, _⟩ => show win0_12.index t (0 : Fin 2) * 8 + 1 * y0.val = 8 * (t.val / 25) + y0.val; omega
  | ⟨1, _⟩ => show win0_12.index t (1 : Fin 2) * 5 + 1 * y1.val = y1.val; omega

/-- An index of the array is in position t's block iff each coordinate is in the block's range on its axis. -/
theorem mem_blk12 (t : Fin cfg0.N) (i : S16x5.Idx) :
    i ∈ ((cfg0.win 12).blk t).view.set ↔ ∀ a : Fin 2, win0_12.index t a * S8x5.size a ≤ (i a).val ∧ (i a).val < win0_12.index t a * S8x5.size a + S8x5.size a := by
  show i ∈ ((View.whole main_v1_2).slice (win0_12.rect t)).set ↔ _
  rw [View.set_slice_whole, Rect.mem_set_unit]
  exact Iff.rfl

/-- Every index of output 2 is in the block of a position that writes back: the last position of its half. -/
theorem oblk12_cover (i : S16x5.Idx) : ∃ t : Fin cfg0.N, (cfg0.win 12).flush t = true ∧ i ∈ ((cfg0.win 12).blk t).view.set := by
  have hi0 : (i 0).val < 16 := (i 0).isLt
  have hi1 : (i 1).val < 5 := (i 1).isLt
  have hN : cfg0.N = 50 := N_0
  refine ⟨⟨25 * ((i 0).val / 8) + 24, by omega⟩, (flush0_12 _).mpr (by show (25 * ((i 0).val / 8) + 24) % 25 = 24; omega), ?_⟩
  rw [mem_blk12]
  obtain ⟨e0, e1⟩ := idx_facts12 ⟨25 * ((i 0).val / 8) + 24, by omega⟩
  intro a
  match a with
  | ⟨0, _⟩ =>
    show win0_12.index ⟨25 * ((i 0).val / 8) + 24, _⟩ (0 : Fin 2) * 8 ≤ (i 0).val ∧ (i 0).val < win0_12.index ⟨25 * ((i 0).val / 8) + 24, _⟩ (0 : Fin 2) * 8 + 8
    rw [e0]
    show (25 * ((i 0).val / 8) + 24) / 25 * 8 ≤ (i 0).val ∧ (i 0).val < (25 * ((i 0).val / 8) + 24) / 25 * 8 + 8
    omega
  | ⟨1, _⟩ =>
    show win0_12.index ⟨25 * ((i 0).val / 8) + 24, _⟩ (1 : Fin 2) * 5 ≤ (i 1).val ∧ (i 1).val < win0_12.index ⟨25 * ((i 0).val / 8) + 24, _⟩ (1 : Fin 2) * 5 + 5
    rw [e1]
    omega

end Cert.Pool.K

end
-- ==== Proof.KCols.lean ====
import proofs.«146061_j43422119363005_2_alg».proof.Proof.KGrid
import proofs.«146061_j43422119363005_2_alg».proof.Proof.KChunk
import proofs.«146061_j43422119363005_2_alg».proof.Proof.KBlocks

set_option maxRecDepth 16384

noncomputable section

/-!
  The carried rows column by column, at the extended reals.

  Position t of the grid is tile t of the 200000 rows (rows 4000 t … 4000 t + 3999), and its four
  chunks are chunks 4 (t mod 25) … 4 (t mod 25) + 3 of core t / 25, whose rows start at
  100000 (t / 25).  So after position t column o of the three carried rows is the running state
  (chunkState) of core t / 25 after 4 (t mod 25) + 4 chunks of that column's logits.
-/

namespace Cert.Pool.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ) (c : Dev nD)

/-- Argument 1 as the kernel is given it. -/
abbrev A1 : S384x128.Idx → EReal := m ((c : Thread nD τ).loc main_arg1)
/-- Argument 2 as the kernel is given it. -/
abbrev A2 : S384.Idx → EReal := m ((c : Thread nD τ).loc main_arg2)
/-- Argument 3 as the kernel is given it. -/
abbrev A3 : S256x384.Idx → EReal := m ((c : Thread nD τ).loc main_arg3)
/-- Argument 4 as the kernel is given it. -/
abbrev A4 : S256.Idx → EReal := m ((c : Thread nD τ).loc main_arg4)
/-- Argument 5 as the kernel is given it. -/
abbrev A5 : S128x256.Idx → EReal := m ((c : Thread nD τ).loc main_arg5)
/-- Argument 6 as the kernel is given it. -/
abbrev A6 : S128.Idx → EReal := m ((c : Thread nD τ).loc main_arg6)
/-- Argument 7 as the kernel is given it. -/
abbrev A7 : S5x128.Idx → EReal := m ((c : Thread nD τ).loc main_arg7)
/-- Argument 8 as the kernel is given it. -/
abbrev A8 : S5.Idx → EReal := m ((c : Thread nD τ).loc main_arg8)
/-- Argument 9 as the kernel is given it. -/
abbrev A9 : S5.Idx → EReal := m ((c : Thread nD τ).loc main_arg9)

/-- The feature rows as the region finds them (the one-deep stack flattened to a matrix). -/
abbrev Xall : S200000x128.Idx → EReal := V m c main_v0

/-- Column o of the logits of row n (zero past the last row). -/
def Plog (o : Fin 5) (n : ℕ) : EReal :=
  if h : n < 200000 then
    logit (mat (A1 m c)) (vec (A2 m c)) (mat (A3 m c)) (vec (A4 m c)) (mat (A5 m c)) (vec (A6 m c)) (mat (A7 m c)) (vec (A8 m c)) (row (Xall m c) ⟨n, h⟩) o
  else 0

/-- Column o of three carried rows. -/
def colState (s : Vec Ideal S1x5 .f32 × Vec Ideal S1x5 .f32 × Vec Ideal S1x5 .f32) (o : Fin 5) : EReal × EReal × EReal :=
  (s.1 (ix2 (0 : Fin 1) o), s.2.1 (ix2 (0 : Fin 1) o), s.2.2 (ix2 (0 : Fin 1) o))

/-- One position: four more chunks of its core. -/
theorem pt_cols (t : Fin cfg0.N) (s0 : Vec Ideal S1x5 .f32 × Vec Ideal S1x5 .f32 × Vec Ideal S1x5 .f32) (o : Fin 5)
    (hs : colState s0 o = chunkState (A9 m c (ix1 o)) (fun j => Plog m c o (100000 * (t.val / 25) + j)) 1000 (4 * (t.val % 25))) :
    colState (ptState (iblk m c 0 t) (iblk m c 1 t) (iblk m c 2 t) (iblk m c 3 t) (iblk m c 4 t) (iblk m c 5 t) (iblk m c 6 t) (iblk m c 7 t) (iblk m c 8 t) (iblk m c 9 t) s0) o
      = chunkState (A9 m c (ix1 o)) (fun j => Plog m c o (100000 * (t.val / 25) + j)) 1000 (4 * (t.val % 25) + 4) := by
  have hN : t.val < 50 := lt_of_lt_of_eq t.isLt N_0
  rw [iblk1_eq m c t, iblk2_eq m c t, iblk3_eq m c t, iblk4_eq m c t, iblk5_eq m c t, iblk6_eq m c t, iblk7_eq m c t, iblk8_eq m c t, iblk9_eq m c t]
  refine stAfter_chunk (A1 m c) (A2 m c) (A3 m c) (A4 m c) (A5 m c) (A6 m c) (A7 m c) (A8 m c) (A9 m c) (iblk m c 0 t) s0 o _ (4 * (t.val % 25)) (fun k r hk hr => ?_) hs
  have hlt : 100000 * (t.val / 25) + ((4 * (t.val % 25) + k) * 1000 + r) < 200000 := by omega
  have hrow : row (iblk m c 0 t : S4000x128.Idx → EReal) ⟨1000 * k + r, by omega⟩
      = row (Xall m c) ⟨100000 * (t.val / 25) + ((4 * (t.val % 25) + k) * 1000 + r), hlt⟩ := by
    funext f
    refine (iblk0_apply m c t ⟨1000 * k + r, by omega⟩ f).trans ?_
    exact congrArg (fun n : Fin 200000 => Xall m c (ix2 n f)) (Fin.ext (by show 4000 * t.val + (1000 * k + r) = 100000 * (t.val / 25) + ((4 * (t.val % 25) + k) * 1000 + r); omega))
  show _ = Plog m c o (100000 * (t.val / 25) + ((4 * (t.val % 25) + k) * 1000 + r))
  rw [Plog, dif_pos hlt, ← hrow]

/-- After the point at position n: core n / 25 after 4 (n mod 25) + 4 chunks. -/
theorem scr_cols (o : Fin 5) : ∀ (n : ℕ) (hn : n < cfg0.N),
    colState (scr m c n hn) o = chunkState (A9 m c (ix1 o)) (fun j => Plog m c o (100000 * (n / 25) + j)) 1000 (4 * (n % 25) + 4)
  | 0, hn => by
    rw [show scr m c 0 hn = _ from scr_first m c ⟨0, hn⟩ rfl]
    exact pt_cols m c ⟨0, hn⟩ initState o (initRows_apply o)
  | n + 1, hn => by
    by_cases h0 : (n + 1) % 25 = 0
    · rw [show scr m c (n + 1) hn = _ from scr_first m c ⟨n + 1, hn⟩ h0]
      refine pt_cols m c ⟨n + 1, hn⟩ initState o ?_
      show _ = chunkState _ _ 1000 (4 * ((n + 1) % 25))
      rw [h0]
      exact initRows_apply o
    · rw [show scr m c (n + 1) hn = _ from scr_next m c ⟨n + 1, hn⟩ h0]
      have hN : n + 1 < 50 := lt_of_lt_of_eq hn N_0
      have ih := scr_cols o n (Nat.lt_of_succ_lt hn)
      refine pt_cols m c ⟨n + 1, hn⟩ _ o ?_
      show colState (scr m c n _) o = chunkState _ (fun j => Plog m c o (100000 * ((n + 1) / 25) + j)) 1000 (4 * ((n + 1) % 25))
      have e1 : (n + 1) / 25 = n / 25 := by omega
      have e2 : 4 * ((n + 1) % 25) = 4 * (n % 25) + 4 := by omega
      rw [e1, e2]
      exact ih

end Cert.Pool.K

end
-- ==== Proof.KFinal.lean ====
import proofs.«146061_j43422119363005_2_alg».proof.Proof.KCols

set_option maxRecDepth 16384

noncomputable section

/-!
  What the three output arrays hold after the run.

  Each output array has sixteen rows in two blocks of eight; block k is written once, at the last
  point of core k, with the core's final carried row stretched over the eight rows.  So row 8 k + r
  of output array number j holds component j of core k's final state, column by column.
-/

namespace Cert.Pool.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

section anyF
variable {F : FTy → Type} [FloatOps F]
variable (m : (ℓ : Loc nD τ sig) → Buf (Elt F) ℓ)

/-- At a core's last point output 10's block is the carried row 0 stretched to eight rows. -/
theorem out10_last (c : Dev nD) (t : Fin cfg0.N) (h1 : t.val % 25 = 24) :
    (outsAt0 m c t.val t.isLt).1 = k0_pay11 (scr m c t.val t.isLt).1 := by
  have h0 : ¬t.val % 25 = 0 := by omega
  rw [scr_next m c t h0, outsAt0_C m c t h0 h1]
  dsimp only
  exact out0_C_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _

/-- At a core's last point output 11's block is the carried row 1 stretched to eight rows. -/
theorem out11_last (c : Dev nD) (t : Fin cfg0.N) (h1 : t.val % 25 = 24) :
    (outsAt0 m c t.val t.isLt).2.1 = k0_pay12 (scr m c t.val t.isLt).2.1 := by
  have h0 : ¬t.val % 25 = 0 := by omega
  rw [scr_next m c t h0, outsAt0_C m c t h0 h1]
  dsimp only
  exact out0_C_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _

/-- At a core's last point output 12's block is the carried row 2 stretched to eight rows. -/
theorem out12_last (c : Dev nD) (t : Fin cfg0.N) (h1 : t.val % 25 = 24) :
    (outsAt0 m c t.val t.isLt).2.2.1 = k0_pay13 (scr m c t.val t.isLt).2.2 := by
  have h0 : ¬t.val % 25 = 0 := by omega
  rw [scr_next m c t h0, outsAt0_C m c t h0 h1]
  dsimp only
  exact out0_C_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _

end anyF

variable (m : (ℓ : Loc nD τ sig) → Buf (Elt Ideal) ℓ) (c : Dev nD)

/-- Core k's final state in column o: all its hundred chunks folded in. -/
def coreState (k : ℕ) (o : Fin 5) : EReal × EReal × EReal :=
  chunkState (A9 m c (ix1 o)) (fun j => Plog m c o (100000 * k + j)) 1000 100

/-- What output 10 ends holding: rows 8 k … 8 k + 7 are component 0 of core k's final state. -/
def G10 : S16x5.Idx → EReal := fun i => (coreState m c ((i 0).val / 8) (i 1)).1

theorem flushed10 (t : Fin cfg0.N) (hf : (cfg0.win 10).flush t = true) :
    (dats m 0 c).flushed 10 t = ((cfg0.win 10).blk t).view.read (Elt Ideal) (G10 m c) := by
  have h1 : t.val % 25 = 24 := (flush0_10 t).mp hf
  have hN : t.val < 50 := lt_of_lt_of_eq t.isLt N_0
  show (cfg0.win 10).cut (grid0.coords t) ((dats m 0 c).after 10 t) = _
  rw [after0_10, out10_last m c t h1]
  have key : ∀ y : S8x5.Idx, k0_pay11 (scr m c t.val t.isLt).1 y = G10 m c (((cfg0.win 10).blk t).view.emb y) := fun y => by
    obtain ⟨y0, y1, rfl⟩ : ∃ (y0 : Fin 8) (y1 : Fin 5), y = ix2 y0 y1 := ⟨y 0, y 1, eq_ix2 y⟩
    rw [stretch11_apply, oblk10_emb t y0 y1]
    show _ = (coreState m c ((8 * (t.val / 25) + y0.val) / 8) y1).1
    have hy : y0.val < 8 := y0.isLt
    rw [show (8 * (t.val / 25) + y0.val) / 8 = t.val / 25 by omega]
    have hc := congrArg Prod.fst (scr_cols m c y1 t.val t.isLt)
    rw [show 4 * (t.val % 25) + 4 = 100 by omega] at hc
    exact hc
  exact funext key

theorem final10 : (dats m 0 c).arrAt 10 cfg0.N = G10 m c :=
  (dats m 0 c).arrAt_eq_of_cover 10 (G10 m c) (fun t hf => flushed10 m c t hf) oblk10_cover

/-- What output 11 ends holding: rows 8 k … 8 k + 7 are component 1 of core k's final state. -/
def G11 : S16x5.Idx → EReal := fun i => (coreState m c ((i 0).val / 8) (i 1)).2.1

theorem flushed11 (t : Fin cfg0.N) (hf : (cfg0.win 11).flush t = true) :
    (dats m 0 c).flushed 11 t = ((cfg0.win 11).blk t).view.read (Elt Ideal) (G11 m c) := by
  have h1 : t.val % 25 = 24 := (flush0_11 t).mp hf
  have hN : t.val < 50 := lt_of_lt_of_eq t.isLt N_0
  show (cfg0.win 11).cut (grid0.coords t) ((dats m 0 c).after 11 t) = _
  rw [after0_11, out11_last m c t h1]
  have key : ∀ y : S8x5.Idx, k0_pay12 (scr m c t.val t.isLt).2.1 y = G11 m c (((cfg0.win 11).blk t).view.emb y) := fun y => by
    obtain ⟨y0, y1, rfl⟩ : ∃ (y0 : Fin 8) (y1 : Fin 5), y = ix2 y0 y1 := ⟨y 0, y 1, eq_ix2 y⟩
    rw [stretch12_apply, oblk11_emb t y0 y1]
    show _ = (coreState m c ((8 * (t.val / 25) + y0.val) / 8) y1).2.1
    have hy : y0.val < 8 := y0.isLt
    rw [show (8 * (t.val / 25) + y0.val) / 8 = t.val / 25 by omega]
    have hc := congrArg (fun p => p.2.1) (scr_cols m c y1 t.val t.isLt)
    rw [show 4 * (t.val % 25) + 4 = 100 by omega] at hc
    exact hc
  exact funext key

theorem final11 : (dats m 0 c).arrAt 11 cfg0.N = G11 m c :=
  (dats m 0 c).arrAt_eq_of_cover 11 (G11 m c) (fun t hf => flushed11 m c t hf) oblk11_cover

/-- What output 12 ends holding: rows 8 k … 8 k + 7 are component 2 of core k's final state. -/
def G12 : S16x5.Idx → EReal := fun i => (coreState m c ((i 0).val / 8) (i 1)).2.2

theorem flushed12 (t : Fin cfg0.N) (hf : (cfg0.win 12).flush t = true) :
    (dats m 0 c).flushed 12 t = ((cfg0.win 12).blk t).view.read (Elt Ideal) (G12 m c) := by
  have h1 : t.val % 25 = 24 := (flush0_12 t).mp hf
  have hN : t.val < 50 := lt_of_lt_of_eq t.isLt N_0
  show (cfg0.win 12).cut (grid0.coords t) ((dats m 0 c).after 12 t) = _
  rw [after0_12, out12_last m c t h1]
  have key : ∀ y : S8x5.Idx, k0_pay13 (scr m c t.val t.isLt).2.2 y = G12 m c (((cfg0.win 12).blk t).view.emb y) := fun y => by
    obtain ⟨y0, y1, rfl⟩ : ∃ (y0 : Fin 8) (y1 : Fin 5), y = ix2 y0 y1 := ⟨y 0, y 1, eq_ix2 y⟩
    rw [stretch13_apply, oblk12_emb t y0 y1]
    show _ = (coreState m c ((8 * (t.val / 25) + y0.val) / 8) y1).2.2
    have hy : y0.val < 8 := y0.isLt
    rw [show (8 * (t.val / 25) + y0.val) / 8 = t.val / 25 by omega]
    have hc := congrArg (fun p => p.2.2) (scr_cols m c y1 t.val t.isLt)
    rw [show 4 * (t.val % 25) + 4 = 100 by omega] at hc
    exact hc
  exact funext key

theorem final12 : (dats m 0 c).arrAt 12 cfg0.N = G12 m c :=
  (dats m 0 c).arrAt_eq_of_cover 12 (G12 m c) (fun t hf => flushed12 m c t hf) oblk12_cover

end Cert.Pool.K

end
-- ==== Proof.KHost.lean ====
import proofs.«146061_j43422119363005_2_alg».proof.Proof.Gen.KernelIdeal.Frame
import proofs.«146061_j43422119363005_2_alg».proof.Proof.Arr
import proofs.«146061_j43422119363005_2_alg».proof.Proof.Spec
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

/-!
  The host operations of the kernel program, before and after its pipelined region.

  Before the region the stack of feature rows, one deep, is recast as a matrix of rows: entry
  (n, f) of the matrix is entry (0, n, f) of the stack.

  After the region each of the three result arrays holds, in rows 0 and 8, the running state
  (maximum, sum of exponentials, weighted sum) of one half of the rows.  The operations that
  follow take these two rows out of each array and combine them column by column: the larger of
  the two maxima, the two correction factors exp (m − max), the corrected sums added, and the
  quotient of the two totals.  This is the specification's merge of the two states.
-/

namespace Cert.Pool.K

open Cert.KernelIdeal Cert.KernelIdeal.Gen
open Idealize.ShloMosaic Idealize.ShloMosaic.TcCoe Idealize.ShloMosaic.ValueIdx Idealize.SL.Sem

/-! ## Before the region -/

/-- The matrix of feature rows the region is given, read at (n, f). -/
theorem V_main_v0_apply (m : (ℓ : Loc nD τ sig) → Buf (Elt Ideal) ℓ) (c : Dev nD) (n : Fin 200000) (f : Fin 128) :
    (V m c main_v0 : S200000x128.Idx → EReal) (ix2 n f)
      = (m ((c : Thread nD τ).loc main_arg0) : S1x200000x128.Idx → EReal) (ix3 (0 : Fin 1) n f) := by
  have e : (V m c main_v0 : S200000x128.Idx → EReal)
      = shapeCast S200000x128 (m ((c : Thread nD τ).loc main_arg0) : S1x200000x128.Idx → EReal)
          shapeCasts_S1x200000x128_S200000x128 := by
    show StableHlo.after hostOps0 (fun b => m (c, b)) (Proc.devRef .tc main_v0) = _
    after_results
    rfl
  rw [e]
  exact shapeCast_1ab_ab_apply _ _ n f

/-! ## After the region -/

/-- Row 0 of a result array, taken out as a vector. -/
def r0 (A : FVec Ideal S16x5 .f32) : FVec Ideal S5 .f32 :=
  shapeCast S5 (extractStridedSlice S1x5 ![0, 0] A slices_S16x5_S1x5_0_0) shapeCasts_S1x5_S5

/-- Row 8 of a result array, taken out as a vector. -/
def r8 (A : FVec Ideal S16x5 .f32) : FVec Ideal S5 .f32 :=
  shapeCast S5 (extractStridedSlice S1x5 ![8, 0] A slices_S16x5_S1x5_8_0) shapeCasts_S1x5_S5

theorem r0_apply (A : FVec Ideal S16x5 .f32) (o : Fin 5) : r0 A (ix1 o) = A (ix2 (0 : Fin 16) o) := by
  unfold r0
  rw [shapeCast_1a_a_apply]
  exact slice2_axis0_apply 0 A _ (0 : Fin 1) o (0 : Fin 16) rfl

theorem r8_apply (A : FVec Ideal S16x5 .f32) (o : Fin 5) : r8 A (ix1 o) = A (ix2 (8 : Fin 16) o) := by
  unfold r8
  rw [shapeCast_1a_a_apply]
  exact slice2_axis0_apply 8 A _ (0 : Fin 1) o (8 : Fin 16) rfl

/-- The operations after the region as one function of the three result arrays (maxima, sums of exponentials,
    weighted sums): the two correction factors, the corrected sums, their quotient, as a one-row matrix. -/
def tailTerm (A0 A1 A2 : FVec Ideal S16x5 .f32) : FVec Ideal S1x5 .f32 :=
  shapeCast S1x5
    (Host.divf
      (addf (mulf (Host.exp (subf (r0 A0) (maximumf (r0 A0) (r8 A0)))) (r0 A2))
            (mulf (Host.exp (subf (r8 A0) (maximumf (r0 A0) (r8 A0)))) (r8 A2)))
      (addf (mulf (Host.exp (subf (r0 A0) (maximumf (r0 A0) (r8 A0)))) (r0 A1))
            (mulf (Host.exp (subf (r8 A0) (maximumf (r0 A0) (r8 A0)))) (r8 A1))))
    shapeCasts_S5_S1x5

/-- At column o that function is the merge of the states in rows 0 and 8. -/
theorem tailTerm_apply (A0 A1 A2 : FVec Ideal S16x5 .f32) (o : Fin 5) :
    tailTerm A0 A1 A2 (ix2 (0 : Fin 1) o)
      = merge (A0 (ix2 (0 : Fin 16) o), A1 (ix2 (0 : Fin 16) o), A2 (ix2 (0 : Fin 16) o))
              (A0 (ix2 (8 : Fin 16) o), A1 (ix2 (8 : Fin 16) o), A2 (ix2 (8 : Fin 16) o)) := by
  unfold tailTerm
  rw [shapeCast_a_1a_apply]
  simp only [Host.divf, Host.exp, addf, mulf, subf, maximumf, r0_apply, r8_apply, Ideal.hostDivf_def, Ideal.addf_def,
    Ideal.mulf_def, Ideal.subf_def, Ideal.maximumf_def, Ideal.hostUnary_exp_def, merge]

/-- The operations after the region, from any contents of the buffers: the result at column o is the merge of the
    states in rows 0 and 8 of the three result arrays. -/
theorem tail_of (W : Valuation τ sig (Elt Ideal)) (o : Fin 5) :
    (StableHlo.after hostOps1 W (Proc.devRef .tc main_v26) : S1x5.Idx → EReal) (ix2 (0 : Fin 1) o)
      = merge ((W (Proc.devRef .tc main_v1_0) : S16x5.Idx → EReal) (ix2 (0 : Fin 16) o),
               (W (Proc.devRef .tc main_v1_1) : S16x5.Idx → EReal) (ix2 (0 : Fin 16) o),
               (W (Proc.devRef .tc main_v1_2) : S16x5.Idx → EReal) (ix2 (0 : Fin 16) o))
              ((W (Proc.devRef .tc main_v1_0) : S16x5.Idx → EReal) (ix2 (8 : Fin 16) o),
               (W (Proc.devRef .tc main_v1_1) : S16x5.Idx → EReal) (ix2 (8 : Fin 16) o),
               (W (Proc.devRef .tc main_v1_2) : S16x5.Idx → EReal) (ix2 (8 : Fin 16) o)) := by
  have e : (StableHlo.after hostOps1 W (Proc.devRef .tc main_v26) : S1x5.Idx → EReal)
      = tailTerm (W (Proc.devRef .tc main_v1_0)) (W (Proc.devRef .tc main_v1_1)) (W (Proc.devRef .tc main_v1_2)) := by
    after_results_simp
    rfl
  rw [e]
  exact tailTerm_apply _ _ _ o

/-- The result the kernel program returns, at column o: the merge of the two half states the region left in rows 0
    and 8 of its three result arrays. -/
theorem tail_apply (m : (ℓ : Loc nD τ sig) → Buf (Elt Ideal) ℓ) (c : Dev nD) (o : Fin 5) :
    (Pipeline.afterTail₀ cfgs (dats (F := Ideal) m) 0 (V0 m) [hostOps1] c main_v26 : S1x5.Idx → EReal) (ix2 (0 : Fin 1) o)
      = merge (((dats (F := Ideal) m 0 c).arrAt 10 cfg0.N : S16x5.Idx → EReal) (ix2 (0 : Fin 16) o),
               ((dats (F := Ideal) m 0 c).arrAt 11 cfg0.N : S16x5.Idx → EReal) (ix2 (0 : Fin 16) o),
               ((dats (F := Ideal) m 0 c).arrAt 12 cfg0.N : S16x5.Idx → EReal) (ix2 (0 : Fin 16) o))
              (((dats (F := Ideal) m 0 c).arrAt 10 cfg0.N : S16x5.Idx → EReal) (ix2 (8 : Fin 16) o),
               ((dats (F := Ideal) m 0 c).arrAt 11 cfg0.N : S16x5.Idx → EReal) (ix2 (8 : Fin 16) o),
               ((dats (F := Ideal) m 0 c).arrAt 12 cfg0.N : S16x5.Idx → EReal) (ix2 (8 : Fin 16) o)) := by
  have e10 : (Pipeline.withArrays spec0 c (V0 m c) (fun w => (dats (F := Ideal) m 0 c).arrAt w cfg0.N) (Proc.devRef .tc main_v1_0) : S16x5.Idx → EReal)
      = (dats (F := Ideal) m 0 c).arrAt 10 cfg0.N :=
    Pipeline.withArrays_arr spec0 launch0.win.arr_inj c (V0 m c) (fun w => (dats (F := Ideal) m 0 c).arrAt w cfg0.N) 10
  have e11 : (Pipeline.withArrays spec0 c (V0 m c) (fun w => (dats (F := Ideal) m 0 c).arrAt w cfg0.N) (Proc.devRef .tc main_v1_1) : S16x5.Idx → EReal)
      = (dats (F := Ideal) m 0 c).arrAt 11 cfg0.N :=
    Pipeline.withArrays_arr spec0 launch0.win.arr_inj c (V0 m c) (fun w => (dats (F := Ideal) m 0 c).arrAt w cfg0.N) 11
  have e12 : (Pipeline.withArrays spec0 c (V0 m c) (fun w => (dats (F := Ideal) m 0 c).arrAt w cfg0.N) (Proc.devRef .tc main_v1_2) : S16x5.Idx → EReal)
      = (dats (F := Ideal) m 0 c).arrAt 12 cfg0.N :=
    Pipeline.withArrays_arr spec0 launch0.win.arr_inj c (V0 m c) (fun w => (dats (F := Ideal) m 0 c).arrAt w cfg0.N) 12
  unfold Pipeline.afterTail₀
  show (StableHlo.after hostOps1 (Pipeline.withArrays spec0 c (V0 m c) (fun w => (dats (F := Ideal) m 0 c).arrAt w cfg0.N))
      (Proc.devRef .tc main_v26) : S1x5.Idx → EReal) (ix2 (0 : Fin 1) o) = _
  rw [tail_of, e10, e11, e12]

end Cert.Pool.K

end
-- ==== Proof.RefSide.lean ====
import proofs.«146061_j43422119363005_2_alg».proof.Proof.Gen.ReferenceIdeal.Read
import proofs.«146061_j43422119363005_2_alg».proof.Proof.Spec
import proofs.«146061_j43422119363005_2_alg».proof.Proof.Arr
import Idealize.ShloMosaic.Lib.ValueLayout
import Idealize.ShloMosaic.Lib.Pipeline.Value
import Idealize.ShloMosaic.PureOps.Ideal.Laws

set_option maxRecDepth 16384

noncomputable section

/-!
  The reference program read as the specification.

  Operation by operation the reference computes, for every row n of the features, the five logits
  p n (four dense layers, the third clamped at zero), scales them by α, takes the maximum over all
  rows of each column, exponentiates the differences, sums them, divides, and sums the logits
  weighted by the quotients.  Each lemma below reads one of these stages at an index given by its
  coordinates; the last one says the result at column o is refPool of that column's logits.
-/

namespace Cert.Pool

open Cert.ReferenceIdeal Cert.ReferenceIdeal.Gen Cert.ReferenceIdeal.Read
open Idealize.ShloMosaic Idealize.ShloMosaic.ValueIdx

/-! ## Indices: the composed index maps of the operations, at an index given by coordinates -/

section Indices

variable (n : Fin 200000)

theorem lidx0 (j : Fin 384) (k : Fin 128) : lidx_main_v0 (ix3 (0 : Fin 1) n j) k = ix3 (0 : Fin 1) n k :=
  funext fun a => Fin.ext (by match a with | ⟨0, _⟩ => rfl | ⟨1, _⟩ => rfl | ⟨2, _⟩ => rfl)
theorem ridx0 (j : Fin 384) (k : Fin 128) : ridx_main_v0 (ix3 (0 : Fin 1) n j) k = ix2 j k :=
  funext fun a => Fin.ext (by match a with | ⟨0, _⟩ => rfl | ⟨1, _⟩ => rfl)
theorem bidx2 (j : Fin 384) : idx_main_v1 (idx_main_v2 (ix3 (0 : Fin 1) n j)) = ix1 j :=
  funext fun a => Fin.ext (by match a with | ⟨0, _⟩ => rfl)

theorem lidx4 (j : Fin 256) (k : Fin 384) : lidx_main_v4 (ix3 (0 : Fin 1) n j) k = ix3 (0 : Fin 1) n k :=
  funext fun a => Fin.ext (by match a with | ⟨0, _⟩ => rfl | ⟨1, _⟩ => rfl | ⟨2, _⟩ => rfl)
theorem ridx4 (j : Fin 256) (k : Fin 384) : ridx_main_v4 (ix3 (0 : Fin 1) n j) k = ix2 j k :=
  funext fun a => Fin.ext (by match a with | ⟨0, _⟩ => rfl | ⟨1, _⟩ => rfl)
theorem bidx6 (j : Fin 256) : idx_main_v5 (idx_main_v6 (ix3 (0 : Fin 1) n j)) = ix1 j :=
  funext fun a => Fin.ext (by match a with | ⟨0, _⟩ => rfl)

theorem lidx8 (j : Fin 128) (k : Fin 256) : lidx_main_v8 (ix3 (0 : Fin 1) n j) k = ix3 (0 : Fin 1) n k :=
  funext fun a => Fin.ext (by match a with | ⟨0, _⟩ => rfl | ⟨1, _⟩ => rfl | ⟨2, _⟩ => rfl)
theorem ridx8 (j : Fin 128) (k : Fin 256) : ridx_main_v8 (ix3 (0 : Fin 1) n j) k = ix2 j k :=
  funext fun a => Fin.ext (by match a with | ⟨0, _⟩ => rfl | ⟨1, _⟩ => rfl)
theorem bidx10 (j : Fin 128) : idx_main_v9 (idx_main_v10 (ix3 (0 : Fin 1) n j)) = ix1 j :=
  funext fun a => Fin.ext (by match a with | ⟨0, _⟩ => rfl)

theorem lidx13 (o : Fin 5) (k : Fin 128) : lidx_main_v13 (ix3 (0 : Fin 1) n o) k = ix3 (0 : Fin 1) n k :=
  funext fun a => Fin.ext (by match a with | ⟨0, _⟩ => rfl | ⟨1, _⟩ => rfl | ⟨2, _⟩ => rfl)
theorem ridx13 (o : Fin 5) (k : Fin 128) : ridx_main_v13 (ix3 (0 : Fin 1) n o) k = ix2 o k :=
  funext fun a => Fin.ext (by match a with | ⟨0, _⟩ => rfl | ⟨1, _⟩ => rfl)
theorem bidx15 (o : Fin 5) : idx_main_v14 (idx_main_v15 (ix3 (0 : Fin 1) n o)) = ix1 o :=
  funext fun a => Fin.ext (by match a with | ⟨0, _⟩ => rfl)
theorem bidx18 (o : Fin 5) : idx_main_v17 (idx_main_v18 (ix3 (0 : Fin 1) n o)) = ix1 o :=
  funext fun a => Fin.ext (by match a with | ⟨0, _⟩ => rfl)

theorem bidx24 (o : Fin 5) : idx_main_v23 (idx_main_v24 (ix3 (0 : Fin 1) n o)) = ix2 (0 : Fin 1) o :=
  funext fun a => Fin.ext (by match a with | ⟨0, _⟩ => rfl | ⟨1, _⟩ => rfl)
theorem bidx29 (o : Fin 5) : idx_main_v28 (idx_main_v29 (ix3 (0 : Fin 1) n o)) = ix2 (0 : Fin 1) o :=
  funext fun a => Fin.ext (by match a with | ⟨0, _⟩ => rfl | ⟨1, _⟩ => rfl)
theorem ridx27 (o : Fin 5) : idx_main_v27 (ix2 (0 : Fin 1) o) n = ix3 (0 : Fin 1) n o :=
  funext fun a => Fin.ext (by match a with | ⟨0, _⟩ => rfl | ⟨1, _⟩ => rfl | ⟨2, _⟩ => rfl)
theorem ridx32 (o : Fin 5) : idx_main_v32 (ix2 (0 : Fin 1) o) n = ix3 (0 : Fin 1) n o :=
  funext fun a => Fin.ext (by match a with | ⟨0, _⟩ => rfl | ⟨1, _⟩ => rfl | ⟨2, _⟩ => rfl)

end Indices

/-- The word of −∞ is the bottom of the extended reals. -/
theorem ofBits_neg_inf_host : Ideal.ofBits .f32 0xFF800000#32 = (⊥ : EReal) := by simp [Ideal.ofBits, Ideal.ieee]

section Stages

variable (x0 : (⟨Cert.ReferenceIdeal.S1x200000x128, .f32⟩ : BufTy).Contents (Elt Ideal)) (x1 : (⟨Cert.ReferenceIdeal.S384x128, .f32⟩ : BufTy).Contents (Elt Ideal)) (x2 : (⟨Cert.ReferenceIdeal.S384, .f32⟩ : BufTy).Contents (Elt Ideal))
  (x3 : (⟨Cert.ReferenceIdeal.S256x384, .f32⟩ : BufTy).Contents (Elt Ideal)) (x4 : (⟨Cert.ReferenceIdeal.S256, .f32⟩ : BufTy).Contents (Elt Ideal)) (x5 : (⟨Cert.ReferenceIdeal.S128x256, .f32⟩ : BufTy).Contents (Elt Ideal))
  (x6 : (⟨Cert.ReferenceIdeal.S128, .f32⟩ : BufTy).Contents (Elt Ideal)) (x7 : (⟨Cert.ReferenceIdeal.S5x128, .f32⟩ : BufTy).Contents (Elt Ideal)) (x8 x9 : (⟨Cert.ReferenceIdeal.S5, .f32⟩ : BufTy).Contents (Elt Ideal))

/-! ## The four dense layers -/

/-- The first layer at row n. -/
theorem layer1_apply (n : Fin 200000) (j : Fin 384) :
    val_main_v3 (F := Ideal) x0 x1 x2 (ix3 (0 : Fin 1) n j) = dense (mat x1) (vec x2) (xrow x0 n) j := by
  rw [val_main_v3_apply, val_main_v0_apply, val_main_v2_apply, val_main_v1_apply]
  simp only [Ideal.addf_def, lidx0, ridx0, bidx2]
  rfl

/-- The second layer at row n. -/
theorem layer2_apply (n : Fin 200000) (j : Fin 256) :
    val_main_v7 (F := Ideal) x0 x1 x2 x3 x4 (ix3 (0 : Fin 1) n j)
      = dense (mat x3) (vec x4) (dense (mat x1) (vec x2) (xrow x0 n)) j := by
  rw [val_main_v7_apply, val_main_v4_apply, val_main_v6_apply, val_main_v5_apply]
  simp only [Ideal.addf_def, lidx4, ridx4, bidx6, layer1_apply]
  rfl

/-- The third layer at row n, before the clamp. -/
theorem layer3_apply (n : Fin 200000) (j : Fin 128) :
    val_main_v11 (F := Ideal) x0 x1 x2 x3 x4 x5 x6 (ix3 (0 : Fin 1) n j)
      = dense (mat x5) (vec x6) (dense (mat x3) (vec x4) (dense (mat x1) (vec x2) (xrow x0 n))) j := by
  rw [val_main_v11_apply, val_main_v8_apply, val_main_v10_apply, val_main_v9_apply]
  simp only [Ideal.addf_def, lidx8, ridx8, bidx10, layer2_apply]
  rfl

/-- The third layer at row n, clamped at zero. -/
theorem clamp_apply (n : Fin 200000) (j : Fin 128) :
    val_main_v12 (F := Ideal) x0 x1 x2 x3 x4 x5 x6 (ix3 (0 : Fin 1) n j)
      = max (dense (mat x5) (vec x6) (dense (mat x3) (vec x4) (dense (mat x1) (vec x2) (xrow x0 n))) j) 0 := by
  rw [val_main_v12_apply, val_main_call0_v0_apply, val_main_call0_cst_apply, layer3_apply]
  simp only [Ideal.maximumf_def, Ideal.ofBits_def, Ideal.ofBits_zero_f32]

/-- The five logits of row n. -/
theorem logit_apply (n : Fin 200000) (o : Fin 5) :
    val_main_v16 (F := Ideal) x0 x1 x2 x3 x4 x5 x6 x7 x8 (ix3 (0 : Fin 1) n o)
      = logitOf x0 x1 x2 x3 x4 x5 x6 x7 x8 n o := by
  rw [val_main_v16_apply, val_main_v13_apply, val_main_v15_apply, val_main_v14_apply]
  simp only [Ideal.addf_def, lidx13, ridx13, bidx15, clamp_apply]
  rfl

/-! ## The pooling -/

/-- The scaled logits. -/
theorem scaled_apply (n : Fin 200000) (o : Fin 5) :
    val_main_v19 (F := Ideal) x0 x1 x2 x3 x4 x5 x6 x7 x8 x9 (ix3 (0 : Fin 1) n o)
      = x9 (ix1 o) * logitOf x0 x1 x2 x3 x4 x5 x6 x7 x8 n o := by
  rw [val_main_v19_apply, val_main_v18_apply, val_main_v17_apply, logit_apply]
  simp only [Ideal.mulf_def, bidx18]

/-- The reduction with a maximum body over the rows, from −∞: the fold of max over the rows of the column. -/
theorem colmax_apply (o : Fin 5) :
    val_main_v20 (F := Ideal) x0 x1 x2 x3 x4 x5 x6 x7 x8 x9 (ix2 (0 : Fin 1) o)
      = (Finset.univ : Finset (Fin 200000)).fold max (⊥ : EReal)
          (fun n => x9 (ix1 o) * logitOf x0 x1 x2 x3 x4 x5 x6 x7 x8 n o) := by
  have h : S1x200000x5.Reduces [1] S1x5 := by decide
  unfold val_main_v20
  rw [Host.reduce_eq_fold_single (FloatOps.maximumf (F := Ideal) (φ := .f32))
    (val_main_v19 (F := Ideal) x0 x1 x2 x3 x4 x5 x6 x7 x8 x9) (val_main_cst (F := Ideal))
    reducesTo_S1x200000x5_S1x5_d1 h h_S_]
  have hf : (val_main_v19 (F := Ideal) x0 x1 x2 x3 x4 x5 x6 x7 x8 x9 ∘ h.lift (ix2 (0 : Fin 1) o))
      = fun n : Fin 200000 => x9 (ix1 o) * logitOf x0 x1 x2 x3 x4 x5 x6 x7 x8 n o := by
    funext n
    refine Eq.trans ?_ (scaled_apply x0 x1 x2 x3 x4 x5 x6 x7 x8 x9 n o)
    exact congrArg (val_main_v19 (F := Ideal) x0 x1 x2 x3 x4 x5 x6 x7 x8 x9)
      (funext fun a => Fin.ext (by match a with | ⟨0, _⟩ => rfl | ⟨1, _⟩ => rfl | ⟨2, _⟩ => rfl))
  rw [val_main_cst_apply, Ideal.ofBits_def, ofBits_neg_inf_host]
  exact congrArg (fun f => Finset.fold max (⊥ : EReal) f (Finset.univ : Finset (Fin 200000))) hf

/-- The maximum the exponentials are taken against. -/
theorem max_apply (o : Fin 5) :
    val_main_v22 (F := Ideal) x0 x1 x2 x3 x4 x5 x6 x7 x8 x9 (ix2 (0 : Fin 1) o)
      = max (⊥ : EReal) ((Finset.univ : Finset (Fin 200000)).fold max (⊥ : EReal)
          (fun n => x9 (ix1 o) * logitOf x0 x1 x2 x3 x4 x5 x6 x7 x8 n o)) := by
  rw [val_main_v22_apply, val_main_v21_apply, val_main_cst_0_apply, colmax_apply]
  simp only [Ideal.maximumf_def, Ideal.ofBits_def, ofBits_neg_inf_host]

/-- The exponentials. -/
theorem exp_apply (n : Fin 200000) (o : Fin 5) :
    val_main_v26 (F := Ideal) x0 x1 x2 x3 x4 x5 x6 x7 x8 x9 (ix3 (0 : Fin 1) n o)
      = Ideal.exp (x9 (ix1 o) * logitOf x0 x1 x2 x3 x4 x5 x6 x7 x8 n o
          - max (⊥ : EReal) ((Finset.univ : Finset (Fin 200000)).fold max (⊥ : EReal)
              (fun n => x9 (ix1 o) * logitOf x0 x1 x2 x3 x4 x5 x6 x7 x8 n o))) := by
  rw [val_main_v26_apply, val_main_v25_apply, val_main_v24_apply, val_main_v23_apply, scaled_apply, bidx24, max_apply]
  simp only [Ideal.hostUnary_exp_def, Ideal.subf_def]

/-- The sum of the exponentials of a column. -/
theorem expsum_apply (o : Fin 5) :
    val_main_v27 (F := Ideal) x0 x1 x2 x3 x4 x5 x6 x7 x8 x9 (ix2 (0 : Fin 1) o)
      = 0 + ∑ n : Fin 200000, Ideal.exp (x9 (ix1 o) * logitOf x0 x1 x2 x3 x4 x5 x6 x7 x8 n o
          - max (⊥ : EReal) ((Finset.univ : Finset (Fin 200000)).fold max (⊥ : EReal)
              (fun n => x9 (ix1 o) * logitOf x0 x1 x2 x3 x4 x5 x6 x7 x8 n o))) := by
  rw [val_main_v27_apply, val_main_cst_1_apply, Ideal.ofBits_def, Ideal.ofBits_zero_f32]
  simp only [ridx27, exp_apply]

/-- The softmax weights. -/
theorem weight_apply (n : Fin 200000) (o : Fin 5) :
    val_main_v30 (F := Ideal) x0 x1 x2 x3 x4 x5 x6 x7 x8 x9 (ix3 (0 : Fin 1) n o)
      = Ideal.div (Ideal.exp (x9 (ix1 o) * logitOf x0 x1 x2 x3 x4 x5 x6 x7 x8 n o
          - max (⊥ : EReal) ((Finset.univ : Finset (Fin 200000)).fold max (⊥ : EReal)
              (fun n => x9 (ix1 o) * logitOf x0 x1 x2 x3 x4 x5 x6 x7 x8 n o))))
        (0 + ∑ n' : Fin 200000, Ideal.exp (x9 (ix1 o) * logitOf x0 x1 x2 x3 x4 x5 x6 x7 x8 n' o
          - max (⊥ : EReal) ((Finset.univ : Finset (Fin 200000)).fold max (⊥ : EReal)
              (fun n => x9 (ix1 o) * logitOf x0 x1 x2 x3 x4 x5 x6 x7 x8 n o)))) := by
  rw [val_main_v30_apply, val_main_v29_apply, val_main_v28_apply, exp_apply, bidx29, expsum_apply]
  simp only [Ideal.hostDivf_def]

end Stages

/-- The reference's result at column o is the specification's pooling of that column's logits. -/
theorem ref_result (x0 : (⟨Cert.ReferenceIdeal.S1x200000x128, .f32⟩ : BufTy).Contents (Elt Ideal)) (x1 : (⟨Cert.ReferenceIdeal.S384x128, .f32⟩ : BufTy).Contents (Elt Ideal)) (x2 : (⟨Cert.ReferenceIdeal.S384, .f32⟩ : BufTy).Contents (Elt Ideal))
    (x3 : (⟨Cert.ReferenceIdeal.S256x384, .f32⟩ : BufTy).Contents (Elt Ideal)) (x4 : (⟨Cert.ReferenceIdeal.S256, .f32⟩ : BufTy).Contents (Elt Ideal)) (x5 : (⟨Cert.ReferenceIdeal.S128x256, .f32⟩ : BufTy).Contents (Elt Ideal))
    (x6 : (⟨Cert.ReferenceIdeal.S128, .f32⟩ : BufTy).Contents (Elt Ideal)) (x7 : (⟨Cert.ReferenceIdeal.S5x128, .f32⟩ : BufTy).Contents (Elt Ideal)) (x8 x9 : (⟨Cert.ReferenceIdeal.S5, .f32⟩ : BufTy).Contents (Elt Ideal)) (o : Fin 5) :
    Cert.ReferenceIdeal.Read.val_main_v32 (F := Ideal) x0 x1 x2 x3 x4 x5 x6 x7 x8 x9 (ValueIdx.ix2 (0 : Fin 1) o)
      = refPool (x9 (ValueIdx.ix1 o)) (fun n : Fin 200000 => logitOf x0 x1 x2 x3 x4 x5 x6 x7 x8 n o) := by
  rw [val_main_v32_apply, val_main_cst_2_apply, Ideal.ofBits_def, Ideal.ofBits_zero_f32]
  simp only [ridx32, val_main_v31_apply, Ideal.mulf_def, logit_apply, weight_apply]
  rfl

end Cert.Pool

end
-- ==== Proof.Softmax.lean ====
/-
  The online form of the softmax pooling equals the two-pass form, for real logits.

  For real p and α the state after a set S of rows is (m, ∑ over S of exp (α p − m),
  ∑ over S of p · exp (α p − m)) for a real m (the maximum over S of α p, but only its being real is
  used); folding one more chunk in multiplies both sums by exp (old m − new m), which turns every
  exp (α p − old m) into exp (α p − new m), so the state after S ∪ T is again of that form; from the
  empty state (-∞, 0, 0) the factor is exp (-∞) = 0 against sums that are 0.  Merging two such states
  does the same once more, and the final quotient (∑ p e) / (∑ e) is ∑ p · (e / ∑ e) because the sum of
  exponentials is a positive real.  A quotient (∑ p · exp (α p − m)) / (∑ exp (α p − m)) does not depend
  on the real offset m — changing it multiplies numerator and denominator by the same positive
  number — so the merged offset and the reference's maximum need not be compared.
-/
import proofs.«146061_j43422119363005_2_alg».proof.Proof.Spec

noncomputable section

namespace Cert.Pool

open Idealize.ShloMosaic

/-! ### Real numbers inside the extended reals -/

/-- A finite sum of reals, taken in the extended reals, is the real sum. -/
theorem coe_sum {ι : Type*} (s : Finset ι) (f : ι → ℝ) :
    ∑ i ∈ s, (f i : EReal) = ((∑ i ∈ s, f i : ℝ) : EReal) := by
  classical
  refine Finset.induction_on s ?_ ?_
  · simp
  · intro a s ha ih
    rw [Finset.sum_insert ha, Finset.sum_insert ha, ih, EReal.coe_add]

/-- The maximum of two reals, taken in the extended reals, is the real maximum. -/
theorem coe_max (a b : ℝ) : ((max a b : ℝ) : EReal) = max (a : EReal) (b : EReal) :=
  EReal.coe_strictMono.monotone.map_max

/-- The maximum of a nonempty family of reals, folded from -∞ in the extended reals, is a real. -/
theorem fold_max_real {b : ℕ} (hb : 0 < b) (f : Fin b → ℝ) :
    ∃ F : ℝ, (Finset.univ : Finset (Fin b)).fold max ⊥ (fun r => (f r : EReal)) = (F : EReal) := by
  have h1 : (Finset.univ : Finset (Fin b)).fold max ⊥ (fun r => (f r : EReal)) ≠ ⊤ := by
    apply ne_of_lt
    rw [Finset.fold_max_lt]
    exact ⟨bot_lt_top, fun r _ => EReal.coe_lt_top _⟩
  have h2 : (Finset.univ : Finset (Fin b)).fold max ⊥ (fun r => (f r : EReal)) ≠ ⊥ := by
    apply ne_of_gt
    rw [Finset.lt_fold_max]
    exact Or.inr ⟨⟨0, hb⟩, Finset.mem_univ _, EReal.bot_lt_coe _⟩
  exact ⟨_, (EReal.coe_toReal h1 h2).symm⟩

/-- A dense layer of real inputs, weights and biases has real outputs. -/
theorem dense_real {K N : ℕ} (W : Fin N → Fin K → EReal) (b : Fin N → EReal) (x : Fin K → EReal)
    (hW : ∀ j k, ∃ r : ℝ, W j k = (r : EReal)) (hb : ∀ j, ∃ r : ℝ, b j = (r : EReal)) (hx : ∀ k, ∃ r : ℝ, x k = (r : EReal)) (j : Fin N) :
    ∃ r : ℝ, dense W b x j = (r : EReal) := by
  choose w hw using hW
  choose c hc using hb
  choose y hy using hx
  refine ⟨(∑ k : Fin K, y k * w j k) + c j, ?_⟩
  simp only [dense, hw, hc, hy, ← EReal.coe_mul, coe_sum, ← EReal.coe_add]

/-- The logits of a real row under real weights are real. -/
theorem logit_real (W1 : Fin 384 → Fin 128 → EReal) (b1 : Fin 384 → EReal) (W2 : Fin 256 → Fin 384 → EReal) (b2 : Fin 256 → EReal)
    (W3 : Fin 128 → Fin 256 → EReal) (b3 : Fin 128 → EReal) (W4 : Fin 5 → Fin 128 → EReal) (b4 : Fin 5 → EReal) (x : Fin 128 → EReal)
    (h1 : ∀ j k, ∃ r : ℝ, W1 j k = (r : EReal)) (hb1 : ∀ j, ∃ r : ℝ, b1 j = (r : EReal))
    (h2 : ∀ j k, ∃ r : ℝ, W2 j k = (r : EReal)) (hb2 : ∀ j, ∃ r : ℝ, b2 j = (r : EReal))
    (h3 : ∀ j k, ∃ r : ℝ, W3 j k = (r : EReal)) (hb3 : ∀ j, ∃ r : ℝ, b3 j = (r : EReal))
    (h4 : ∀ j k, ∃ r : ℝ, W4 j k = (r : EReal)) (hb4 : ∀ j, ∃ r : ℝ, b4 j = (r : EReal))
    (hx : ∀ k, ∃ r : ℝ, x k = (r : EReal)) (o : Fin 5) :
    ∃ r : ℝ, logit W1 b1 W2 b2 W3 b3 W4 b4 x o = (r : EReal) := by
  unfold logit
  refine dense_real W4 b4 _ h4 hb4 (fun j => ?_) o
  obtain ⟨r, hr⟩ := dense_real W3 b3 _ h3 hb3
    (fun k => dense_real W2 b2 _ h2 hb2 (fun k' => dense_real W1 b1 x h1 hb1 hx k') k) j
  refine ⟨max r 0, ?_⟩
  rw [hr, coe_max, EReal.coe_zero]

/-! ### The running sums of one column -/

/-- ∑ over the rows in s of exp (α p − m). -/
def expSum (α : ℝ) (P : ℕ → ℝ) (s : Finset ℕ) (m : ℝ) : ℝ := ∑ n ∈ s, Real.exp (α * P n - m)

/-- ∑ over the rows in s of p · exp (α p − m). -/
def wexpSum (α : ℝ) (P : ℕ → ℝ) (s : Finset ℕ) (m : ℝ) : ℝ := ∑ n ∈ s, P n * Real.exp (α * P n - m)

/-- Moving the offset from m to m' multiplies every exponential by exp (m − m'). -/
theorem expSum_rescale (α : ℝ) (P : ℕ → ℝ) (s : Finset ℕ) (m m' : ℝ) :
    Real.exp (m - m') * expSum α P s m = expSum α P s m' := by
  unfold expSum
  rw [Finset.mul_sum]
  refine Finset.sum_congr rfl (fun n _ => ?_)
  rw [← Real.exp_add]
  congr 1
  ring

theorem wexpSum_rescale (α : ℝ) (P : ℕ → ℝ) (s : Finset ℕ) (m m' : ℝ) :
    Real.exp (m - m') * wexpSum α P s m = wexpSum α P s m' := by
  unfold wexpSum
  rw [Finset.mul_sum]
  refine Finset.sum_congr rfl (fun n _ => ?_)
  rw [mul_left_comm, ← Real.exp_add]
  congr 2
  ring

/-- The first chunk, folded into the empty state. -/
theorem upd_empty (α : ℝ) {b : ℕ} (hb : 0 < b) (p : Fin b → ℝ) :
    ∃ m' : ℝ, upd (α : EReal) (fun r => (p r : EReal)) (⊥, 0, 0)
      = ((m' : EReal), ((∑ r : Fin b, Real.exp (α * p r - m') : ℝ) : EReal),
          ((∑ r : Fin b, p r * Real.exp (α * p r - m') : ℝ) : EReal)) := by
  obtain ⟨F, hF⟩ : ∃ F : ℝ, (Finset.univ : Finset (Fin b)).fold max ⊥ (fun r => ((α * p r : ℝ) : EReal)) = (F : EReal) :=
    fold_max_real hb _
  refine ⟨F, ?_⟩
  simp only [upd, ← EReal.coe_mul, hF, max_bot_left, EReal.bot_sub, Ideal.exp_bot, zero_mul, zero_add,
    ← EReal.coe_sub, Ideal.exp_coe, coe_sum]

/-- A further chunk, folded into a real state. -/
theorem upd_real (α : ℝ) {b : ℕ} (hb : 0 < b) (p : Fin b → ℝ) (m l a : ℝ) :
    ∃ m' : ℝ, upd (α : EReal) (fun r => (p r : EReal)) ((m : EReal), (l : EReal), (a : EReal))
      = ((m' : EReal), ((Real.exp (m - m') * l + ∑ r : Fin b, Real.exp (α * p r - m') : ℝ) : EReal),
          ((Real.exp (m - m') * a + ∑ r : Fin b, p r * Real.exp (α * p r - m') : ℝ) : EReal)) := by
  obtain ⟨F, hF⟩ : ∃ F : ℝ, (Finset.univ : Finset (Fin b)).fold max ⊥ (fun r => ((α * p r : ℝ) : EReal)) = (F : EReal) :=
    fold_max_real hb _
  refine ⟨max m F, ?_⟩
  simp only [upd, ← EReal.coe_mul, hF, ← coe_max, ← EReal.coe_sub, Ideal.exp_coe, coe_sum, ← EReal.coe_add]

/-- Appending the rows N, …, N + b − 1 to the rows below N. -/
theorem expSum_append (α : ℝ) (P : ℕ → ℝ) (N b : ℕ) (m : ℝ) :
    expSum α P (Finset.range N) m + ∑ r : Fin b, Real.exp (α * P (N + r.val) - m)
      = expSum α P (Finset.range (N + b)) m := by
  unfold expSum
  rw [Finset.sum_range_add]
  congr 1
  exact (Finset.sum_range (fun n => Real.exp (α * P (N + n) - m))).symm

theorem wexpSum_append (α : ℝ) (P : ℕ → ℝ) (N b : ℕ) (m : ℝ) :
    wexpSum α P (Finset.range N) m + ∑ r : Fin b, P (N + r.val) * Real.exp (α * P (N + r.val) - m)
      = wexpSum α P (Finset.range (N + b)) m := by
  unfold wexpSum
  rw [Finset.sum_range_add]
  congr 1
  exact (Finset.sum_range (fun n => P (N + n) * Real.exp (α * P (N + n) - m))).symm

/-- After q + 1 chunks the state is a real triple (m, ∑ exp (α p − m), ∑ p · exp (α p − m)) over the
    rows walked so far; m is the running maximum, but all that matters below is that it is real. -/
theorem chunkState_real (α : ℝ) (P : ℕ → ℝ) {b : ℕ} (hb : 0 < b) (q : ℕ) :
    ∃ m : ℝ, chunkState (α : EReal) (fun n => (P n : EReal)) b (q + 1)
      = ((m : EReal), (expSum α P (Finset.range ((q + 1) * b)) m : EReal),
          (wexpSum α P (Finset.range ((q + 1) * b)) m : EReal)) := by
  induction q with
  | zero =>
    obtain ⟨m', h⟩ := upd_empty α hb (fun r : Fin b => P (0 * b + r.val))
    refine ⟨m', ?_⟩
    rw [chunkState, chunkState, h]
    simp only [expSum, wexpSum, zero_add, one_mul, zero_mul, Finset.sum_range]
  | succ q ih =>
    obtain ⟨m, hm⟩ := ih
    obtain ⟨m', h⟩ := upd_real α hb (fun r : Fin b => P ((q + 1) * b + r.val)) m
      (expSum α P (Finset.range ((q + 1) * b)) m) (wexpSum α P (Finset.range ((q + 1) * b)) m)
    refine ⟨m', ?_⟩
    rw [chunkState, hm, h, expSum_rescale, wexpSum_rescale, Nat.succ_mul (q + 1) b, expSum_append, wexpSum_append]

/-- Two real states merged: the quotient of the rescaled sums, the denominator being nonzero. -/
theorem merge_real (m0 l0 a0 m1 l1 a1 : ℝ)
    (h : Real.exp (m0 - max m0 m1) * l0 + Real.exp (m1 - max m0 m1) * l1 ≠ 0) :
    merge ((m0 : EReal), (l0 : EReal), (a0 : EReal)) ((m1 : EReal), (l1 : EReal), (a1 : EReal))
      = (((Real.exp (m0 - max m0 m1) * a0 + Real.exp (m1 - max m0 m1) * a1)
          / (Real.exp (m0 - max m0 m1) * l0 + Real.exp (m1 - max m0 m1) * l1) : ℝ) : EReal) := by
  simp only [merge, ← coe_max, ← EReal.coe_sub, Ideal.exp_coe, ← EReal.coe_mul, ← EReal.coe_add]
  rw [Ideal.div_coe h, ← EReal.coe_mul, mul_one_div]

/-- The two-pass pooling of n > 0 real logits: a quotient of two real sums taken relative to a real M. -/
theorem refPool_real (α : ℝ) {n : ℕ} (hn : 0 < n) (p : Fin n → ℝ) :
    ∃ M : ℝ, refPool (α : EReal) (fun i => (p i : EReal))
      = (((∑ i : Fin n, p i * Real.exp (α * p i - M)) / (∑ i : Fin n, Real.exp (α * p i - M)) : ℝ) : EReal) := by
  obtain ⟨F, hF⟩ : ∃ F : ℝ, (Finset.univ : Finset (Fin n)).fold max ⊥ (fun r => ((α * p r : ℝ) : EReal)) = (F : EReal) :=
    fold_max_real hn _
  refine ⟨F, ?_⟩
  have hS : (0 : ℝ) < ∑ i : Fin n, Real.exp (α * p i - F) :=
    Finset.sum_pos (fun i _ => Real.exp_pos _) ⟨⟨0, hn⟩, Finset.mem_univ _⟩
  simp only [refPool, ← EReal.coe_mul, hF, max_bot_left, ← EReal.coe_sub, Ideal.exp_coe, coe_sum, zero_add,
    Ideal.div_coe hS.ne']
  congr 1
  rw [Finset.sum_div]
  refine Finset.sum_congr rfl (fun i _ => ?_)
  rw [mul_one_div, mul_div_assoc]

/-- The general form: q₁ and q₂ chunks of b rows on the two parts of N rows. -/
theorem pool_eq_gen (α : ℝ) (P : ℕ → ℝ) (b q1 q2 N1 N : ℕ) (hb : 0 < b) (hq1 : q1 ≠ 0) (hq2 : q2 ≠ 0)
    (hN1 : N1 = q1 * b) (hN : N = N1 + q2 * b) :
    merge (chunkState (α : EReal) (fun n => (P n : EReal)) b q1)
          (chunkState (α : EReal) (fun n => (P (N1 + n) : EReal)) b q2)
      = refPool (α : EReal) (fun i : Fin N => (P i.val : EReal)) := by
  obtain ⟨k1, rfl⟩ := Nat.exists_eq_add_one_of_ne_zero hq1
  obtain ⟨k2, rfl⟩ := Nat.exists_eq_add_one_of_ne_zero hq2
  have hN1pos : 0 < N1 := by rw [hN1]; exact Nat.mul_pos (Nat.succ_pos _) hb
  have hNpos : 0 < N := by rw [hN]; exact Nat.add_pos_left hN1pos _
  obtain ⟨m0, h0⟩ := chunkState_real α P hb k1
  obtain ⟨m1, h1⟩ := chunkState_real α (fun n => P (N1 + n)) hb k2
  obtain ⟨M, hM⟩ := refPool_real α hNpos (fun i : Fin N => P i.val)
  rw [← hN1] at h0
  rw [h0, h1, hM]
  -- everything is real now; bring all four sums to the common offset max m0 m1
  have hpos : 0 < expSum α P (Finset.range N1) (max m0 m1)
      + expSum α (fun n => P (N1 + n)) (Finset.range ((k2 + 1) * b)) (max m0 m1) := by
    apply add_pos_of_pos_of_nonneg
    · exact Finset.sum_pos (fun i _ => Real.exp_pos _) ⟨0, Finset.mem_range.mpr hN1pos⟩
    · exact Finset.sum_nonneg (fun i _ => (Real.exp_pos _).le)
  rw [merge_real]
  · rw [expSum_rescale, expSum_rescale, wexpSum_rescale, wexpSum_rescale]
    congr 1
    have e1 : (∑ i : Fin N, P i.val * Real.exp (α * P i.val - M))
        = Real.exp (max m0 m1 - M) * (wexpSum α P (Finset.range N1) (max m0 m1)
            + wexpSum α (fun n => P (N1 + n)) (Finset.range ((k2 + 1) * b)) (max m0 m1)) := by
      rw [mul_add, wexpSum_rescale, wexpSum_rescale, ← Finset.sum_range (fun i => P i * Real.exp (α * P i - M)), hN,
        Finset.sum_range_add]
      rfl
    have e2 : (∑ i : Fin N, Real.exp (α * P i.val - M))
        = Real.exp (max m0 m1 - M) * (expSum α P (Finset.range N1) (max m0 m1)
            + expSum α (fun n => P (N1 + n)) (Finset.range ((k2 + 1) * b)) (max m0 m1)) := by
      rw [mul_add, expSum_rescale, expSum_rescale, ← Finset.sum_range (fun i => Real.exp (α * P i - M)), hN,
        Finset.sum_range_add]
      rfl
    rw [e1, e2, mul_div_mul_left _ _ (Real.exp_pos _).ne']
  · rw [expSum_rescale, expSum_rescale]
    exact hpos.ne'

/-- Two chunked walks over the two halves of 200000 real logits, merged, give the two-pass pooling. -/
theorem pool_eq (α : ℝ) (P : ℕ → ℝ) :
    merge (chunkState (α : EReal) (fun n => (P n : EReal)) 1000 100)
          (chunkState (α : EReal) (fun n => (P (100000 + n) : EReal)) 1000 100)
      = refPool (α : EReal) (fun i : Fin 200000 => (P i.val : EReal)) :=
  pool_eq_gen α P 1000 100 100 100000 200000 (by norm_num) (by norm_num) (by norm_num) (by norm_num) (by norm_num)

end Cert.Pool

end
-- ==== Proof.Finite.lean ====
/-
  Finite inputs are real numbers.

  The precondition is a conjunction of ten tests, one per input array: the conjunction over all
  entries x of |x| < +∞.  On the extended reals |x| is max x (−x), which is +∞ at both infinities, so
  each entry passing the test is neither of them: it is a real number.
-/
import proofs.«146061_j43422119363005_2_alg».proof.Defs
import Idealize.ShloMosaic.Lib.ReduceAll

noncomputable section

namespace Cert.Pool

open Idealize.ShloMosaic Idealize.SL.Sem

/-- The shape of a single number has one index. -/
instance : Subsingleton Cert.Pre_finite_inputs.S_.Idx := ⟨fun a b => funext fun d => d.elim0⟩

/-- The pattern 0x7F800000 is +∞. -/
theorem ofBits_inf : Ideal.ofBits .f32 0x7F800000#32 = (⊤ : EReal) := by
  simp [Ideal.ofBits, Ideal.ieee]

/-- An extended real whose absolute value max x (−x) compares below +∞ is a real number. -/
theorem real_of_abs_lt_top (x : EReal) (h : Ideal.cmp .olt (max x (-x)) ⊤ = 1#1) : ∃ r : ℝ, x = (r : EReal) := by
  have h' : max x (-x) < ⊤ := by
    by_contra hn
    simp only [Ideal.cmp, hn, decide_false, BitVec.ofBool_false] at h
    exact absurd h (by decide)
  induction x using EReal.rec with
  | bot => simp at h'
  | coe r => exact ⟨r, rfl⟩
  | top => simp at h'

/-- The test of one array read back: if the conjunction over all entries of |x| < +∞ is one, every
    entry of x is a real number.  Generic in the shape; nothing is enumerated. -/
theorem all_finite_real {S : Shape} {axes : List (Fin S.rank)} (x : S.Idx → EReal)
    (dims : Fin Cert.Pre_finite_inputs.S_.rank → Fin S.rank) (hb : Cert.Pre_finite_inputs.S_.BroadcastsInDim S dims)
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf (F := Ideal) (φ := .f32) .olt (Host.absf (F := Ideal) (φ := .f32) x)
            (broadcastInDim S dims hb (constant (F := Ideal) Cert.Pre_finite_inputs.S_ .f32 0x7F800000#32)))
          init hr hu j = 1#1)
    (i : S.Idx) : ∃ r : ℝ, x i = (r : EReal) := by
  have h := Host.reduce_andi_all _ init hr hu j e i
  have h2 : Ideal.cmp .olt (max (x i) (-(x i))) (Ideal.ofBits .f32 0x7F800000#32) = 1#1 := h
  rw [ofBits_inf] at h2
  exact real_of_abs_lt_top _ h2

/-- All ten argument arrays have real entries under the precondition. -/
theorem args_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i : Cert.KernelIdeal.S1x200000x128.Idx, ∃ r : ℝ, (m ((c.tc : Thread Cert.KernelIdeal.nD Cert.KernelIdeal.τ).loc Cert.KernelIdeal.main_arg0) : Cert.KernelIdeal.S1x200000x128.Idx → EReal) i = (r : EReal))
      ∧ (∀ i : Cert.KernelIdeal.S384x128.Idx, ∃ r : ℝ, (m ((c.tc : Thread Cert.KernelIdeal.nD Cert.KernelIdeal.τ).loc Cert.KernelIdeal.main_arg1) : Cert.KernelIdeal.S384x128.Idx → EReal) i = (r : EReal))
      ∧ (∀ i : Cert.KernelIdeal.S384.Idx, ∃ r : ℝ, (m ((c.tc : Thread Cert.KernelIdeal.nD Cert.KernelIdeal.τ).loc Cert.KernelIdeal.main_arg2) : Cert.KernelIdeal.S384.Idx → EReal) i = (r : EReal))
      ∧ (∀ i : Cert.KernelIdeal.S256x384.Idx, ∃ r : ℝ, (m ((c.tc : Thread Cert.KernelIdeal.nD Cert.KernelIdeal.τ).loc Cert.KernelIdeal.main_arg3) : Cert.KernelIdeal.S256x384.Idx → EReal) i = (r : EReal))
      ∧ (∀ i : Cert.KernelIdeal.S256.Idx, ∃ r : ℝ, (m ((c.tc : Thread Cert.KernelIdeal.nD Cert.KernelIdeal.τ).loc Cert.KernelIdeal.main_arg4) : Cert.KernelIdeal.S256.Idx → EReal) i = (r : EReal))
      ∧ (∀ i : Cert.KernelIdeal.S128x256.Idx, ∃ r : ℝ, (m ((c.tc : Thread Cert.KernelIdeal.nD Cert.KernelIdeal.τ).loc Cert.KernelIdeal.main_arg5) : Cert.KernelIdeal.S128x256.Idx → EReal) i = (r : EReal))
      ∧ (∀ i : Cert.KernelIdeal.S128.Idx, ∃ r : ℝ, (m ((c.tc : Thread Cert.KernelIdeal.nD Cert.KernelIdeal.τ).loc Cert.KernelIdeal.main_arg6) : Cert.KernelIdeal.S128.Idx → EReal) i = (r : EReal))
      ∧ (∀ i : Cert.KernelIdeal.S5x128.Idx, ∃ r : ℝ, (m ((c.tc : Thread Cert.KernelIdeal.nD Cert.KernelIdeal.τ).loc Cert.KernelIdeal.main_arg7) : Cert.KernelIdeal.S5x128.Idx → EReal) i = (r : EReal))
      ∧ (∀ i : Cert.KernelIdeal.S5.Idx, ∃ r : ℝ, (m ((c.tc : Thread Cert.KernelIdeal.nD Cert.KernelIdeal.τ).loc Cert.KernelIdeal.main_arg8) : Cert.KernelIdeal.S5.Idx → EReal) i = (r : EReal))
      ∧ (∀ i : Cert.KernelIdeal.S5.Idx, ∃ r : ℝ, (m ((c.tc : Thread Cert.KernelIdeal.nD Cert.KernelIdeal.τ).loc Cert.KernelIdeal.main_arg9) : Cert.KernelIdeal.S5.Idx → EReal) i = (r : EReal)) := by
  have hc := congrFun (h c) (fun a => a.elim0)
  dsimp only [Cert.Pre_finite_inputs.fn, Cert.Pre_finite_inputs.fn_part1, Cert.Pre_finite_inputs.fn_part2] at hc
  simp only [andi, IntOp.andi_eq_one] at hc
  obtain ⟨⟨⟨⟨⟨⟨⟨⟨⟨h0, h1⟩, h2⟩, h3⟩, h4⟩, h5⟩, h6⟩, h7⟩, h8⟩, h9⟩ := hc
  exact ⟨fun i => all_finite_real _ _ _ _ _ _ _ h0 i, fun i => all_finite_real _ _ _ _ _ _ _ h1 i,
    fun i => all_finite_real _ _ _ _ _ _ _ h2 i, fun i => all_finite_real _ _ _ _ _ _ _ h3 i,
    fun i => all_finite_real _ _ _ _ _ _ _ h4 i, fun i => all_finite_real _ _ _ _ _ _ _ h5 i,
    fun i => all_finite_real _ _ _ _ _ _ _ h6 i, fun i => all_finite_real _ _ _ _ _ _ _ h7 i,
    fun i => all_finite_real _ _ _ _ _ _ _ h8 i, fun i => all_finite_real _ _ _ _ _ _ _ h9 i⟩

theorem arg0_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S1x200000x128.Idx) : ∃ r : ℝ, (m ((c.tc : Thread Cert.KernelIdeal.nD Cert.KernelIdeal.τ).loc Cert.KernelIdeal.main_arg0) : Cert.KernelIdeal.S1x200000x128.Idx → EReal) i = (r : EReal) :=
  (args_real m h c).1 i

theorem arg1_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S384x128.Idx) : ∃ r : ℝ, (m ((c.tc : Thread Cert.KernelIdeal.nD Cert.KernelIdeal.τ).loc Cert.KernelIdeal.main_arg1) : Cert.KernelIdeal.S384x128.Idx → EReal) i = (r : EReal) :=
  (args_real m h c).2.1 i

theorem arg2_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S384.Idx) : ∃ r : ℝ, (m ((c.tc : Thread Cert.KernelIdeal.nD Cert.KernelIdeal.τ).loc Cert.KernelIdeal.main_arg2) : Cert.KernelIdeal.S384.Idx → EReal) i = (r : EReal) :=
  (args_real m h c).2.2.1 i

theorem arg3_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S256x384.Idx) : ∃ r : ℝ, (m ((c.tc : Thread Cert.KernelIdeal.nD Cert.KernelIdeal.τ).loc Cert.KernelIdeal.main_arg3) : Cert.KernelIdeal.S256x384.Idx → EReal) i = (r : EReal) :=
  (args_real m h c).2.2.2.1 i

theorem arg4_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S256.Idx) : ∃ r : ℝ, (m ((c.tc : Thread Cert.KernelIdeal.nD Cert.KernelIdeal.τ).loc Cert.KernelIdeal.main_arg4) : Cert.KernelIdeal.S256.Idx → EReal) i = (r : EReal) :=
  (args_real m h c).2.2.2.2.1 i

theorem arg5_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S128x256.Idx) : ∃ r : ℝ, (m ((c.tc : Thread Cert.KernelIdeal.nD Cert.KernelIdeal.τ).loc Cert.KernelIdeal.main_arg5) : Cert.KernelIdeal.S128x256.Idx → EReal) i = (r : EReal) :=
  (args_real m h c).2.2.2.2.2.1 i

theorem arg6_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S128.Idx) : ∃ r : ℝ, (m ((c.tc : Thread Cert.KernelIdeal.nD Cert.KernelIdeal.τ).loc Cert.KernelIdeal.main_arg6) : Cert.KernelIdeal.S128.Idx → EReal) i = (r : EReal) :=
  (args_real m h c).2.2.2.2.2.2.1 i

theorem arg7_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S5x128.Idx) : ∃ r : ℝ, (m ((c.tc : Thread Cert.KernelIdeal.nD Cert.KernelIdeal.τ).loc Cert.KernelIdeal.main_arg7) : Cert.KernelIdeal.S5x128.Idx → EReal) i = (r : EReal) :=
  (args_real m h c).2.2.2.2.2.2.2.1 i

theorem arg8_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S5.Idx) : ∃ r : ℝ, (m ((c.tc : Thread Cert.KernelIdeal.nD Cert.KernelIdeal.τ).loc Cert.KernelIdeal.main_arg8) : Cert.KernelIdeal.S5.Idx → EReal) i = (r : EReal) :=
  (args_real m h c).2.2.2.2.2.2.2.2.1 i

theorem arg9_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S5.Idx) : ∃ r : ℝ, (m ((c.tc : Thread Cert.KernelIdeal.nD Cert.KernelIdeal.τ).loc Cert.KernelIdeal.main_arg9) : Cert.KernelIdeal.S5.Idx → EReal) i = (r : EReal) :=
  (args_real m h c).2.2.2.2.2.2.2.2.2 i

end Cert.Pool

end
-- ==== Proof.Bridge.lean ====
import proofs.«146061_j43422119363005_2_alg».proof.Defs
import proofs.«146061_j43422119363005_2_alg».proof.Proof.KFinal
import proofs.«146061_j43422119363005_2_alg».proof.Proof.KHost
import proofs.«146061_j43422119363005_2_alg».proof.Proof.RefSide
import proofs.«146061_j43422119363005_2_alg».proof.Proof.Softmax
import proofs.«146061_j43422119363005_2_alg».proof.Proof.Finite
import proofs.«146061_j43422119363005_2_alg».proof.Proof.Gen.ReferenceIdeal.Read
import proofs.«146061_j43422119363005_2_alg».proof.Proof.Gen.Pre_finite_inputs

set_option maxRecDepth 16384

noncomputable section

/-!
  The two programs compute one function.

  Column o of the kernel's result is the merge of the two cores' final running states of that
  column; column o of the reference's result is the two-pass softmax pooling of the same 200000
  logits.  The inputs being finite, every logit is a real number, and for real logits the online
  form equals the two-pass form (Cert.Pool.pool_eq).
-/

namespace Cert.Pool.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable [hP : Cert.Pre_finite_inputs.Facts]
variable (m : (ℓ : Loc nD τ sig) → Buf (Elt Ideal) ℓ) (c : Dev nD)

/-- Under the precondition every logit is a real number. -/
theorem Plog_real (hpre : Cert.Pre_KernelIdeal m) (o : Fin 5) (n : ℕ) : ∃ r : ℝ, Plog m c o n = (r : EReal) := by
  unfold Plog
  split
  · rename_i h
    exact logit_real _ _ _ _ _ _ _ _ _
      (fun j k => arg1_real m hpre c (ix2 j k)) (fun j => arg2_real m hpre c (ix1 j))
      (fun j k => arg3_real m hpre c (ix2 j k)) (fun j => arg4_real m hpre c (ix1 j))
      (fun j k => arg5_real m hpre c (ix2 j k)) (fun j => arg6_real m hpre c (ix1 j))
      (fun j k => arg7_real m hpre c (ix2 j k)) (fun j => arg8_real m hpre c (ix1 j))
      (fun k => by
        obtain ⟨r, hr⟩ := arg0_real m hpre c (ix3 (0 : Fin 1) ⟨n, h⟩ k)
        exact ⟨r, (V_main_v0_apply m c ⟨n, h⟩ k).trans hr⟩) o
  · exact ⟨0, rfl⟩

/-- The reference's logits are the same numbers. -/
theorem logitOf_eq (n : Fin 200000) (o : Fin 5) :
    logitOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n o = Plog m c o n.val := by
  unfold Plog
  rw [dif_pos n.isLt]
  unfold logitOf
  congr 1
  funext f
  exact (V_main_v0_apply m c n f).symm

/-- Row r of the three output arrays, column o: the final state of core r / 8. -/
theorem G_tuple (r : Fin 16) (o : Fin 5) (k : ℕ) (hk : r.val / 8 = k) :
    (G10 m c (ix2 r o), G11 m c (ix2 r o), G12 m c (ix2 r o)) = coreState m c k o := by
  subst hk; rfl

/-- The kernel's result is the reference's, as functions of the argument arrays. -/
theorem result_eq (hpre : Cert.Pre_KernelIdeal m) :
    (Pipeline.afterTail₀ cfgs (dats (F := Ideal) m) 0 (V0 m) [hostOps1] c main_v26 : S1x5.Idx → EReal)
      = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨u, o, rfl⟩ : ∃ (u : Fin 1) (o : Fin 5), i = ix2 u o := ⟨i 0, i 1, eq_ix2 i⟩
  obtain rfl : u = 0 := Subsingleton.elim _ _
  obtain ⟨α, hα⟩ := arg9_real m hpre c (ix1 o)
  choose Pr hPr using Plog_real m c hpre o
  rw [ref_result, tail_apply m c o, final10, final11, final12]
  have e0 : (G10 m c (ix2 0 o), G11 m c (ix2 0 o), G12 m c (ix2 0 o)) = chunkState (α : EReal) (fun n => (Pr n : EReal)) 1000 100 := by
    rw [G_tuple m c 0 o 0 (by decide)]
    simp only [coreState, Nat.mul_zero, Nat.zero_add, hPr]
    rw [show A9 m c (ix1 o) = (α : EReal) from hα]
  have e1 : (G10 m c (ix2 8 o), G11 m c (ix2 8 o), G12 m c (ix2 8 o)) = chunkState (α : EReal) (fun n => (Pr (100000 + n) : EReal)) 1000 100 := by
    rw [G_tuple m c 8 o 1 (by decide)]
    simp only [coreState, Nat.mul_one, hPr]
    rw [show A9 m c (ix1 o) = (α : EReal) from hα]
  rw [e0, e1, pool_eq α Pr]
  show _ = refPool (A9 m c (ix1 o)) _
  rw [show A9 m c (ix1 o) = (α : EReal) from hα]
  congr 1
  funext n
  rw [logitOf_eq m c n o]
  exact (hPr n.val).symm

end Cert.Pool.K

end
-- ==== Proof.lean ====
/-
  A four-layer perceptron applied to each of 200000 rows, followed by a softmax-weighted pooling
  of each of the five output columns over all rows.

  The reference computes the logits of all rows, then per column the maximum, the exponentials,
  their sum, the quotients and the weighted sum.  The kernel splits the rows in two halves, one per
  core; each core walks over its rows in tiles of 4000 (one grid point each) and chunks of 1000 (a
  loop inside the point), carrying a running maximum, a running sum of exponentials and a running
  weighted sum, rescaled whenever the maximum moves; the two cores' final states are merged and
  divided on the host.

  On the extended reals the logits of a row are the same nested sums in both programs (a format
  change is the identity, a product into a zero accumulator is the plain contraction).  The inputs
  being finite, every logit is a real number, and for real logits the chunked, rescaled, merged
  form equals the two-pass form: exp (m − m') · exp (s − m) = exp (s − m'), and a sum of positive
  exponentials is a nonzero divisor.

  The three frames are the generated ones (the reference's is its generated run with the result
  dropped); the kernel's printed text has no rewritten operation, so nothing is owed for it.
-/
import proofs.«146061_j43422119363005_2_alg».proof.Defs
import proofs.«146061_j43422119363005_2_alg».proof.Proof.Gen.Kernel
import proofs.«146061_j43422119363005_2_alg».proof.Proof.Gen.Kernel.Skeleton
import proofs.«146061_j43422119363005_2_alg».proof.Proof.Gen.Kernel.Loops
import proofs.«146061_j43422119363005_2_alg».proof.Proof.Gen.Kernel.Launch
import proofs.«146061_j43422119363005_2_alg».proof.Proof.Gen.Kernel.Points
import proofs.«146061_j43422119363005_2_alg».proof.Proof.Gen.Kernel.Frame
import proofs.«146061_j43422119363005_2_alg».proof.Proof.Gen.KernelIdeal
import proofs.«146061_j43422119363005_2_alg».proof.Proof.Gen.KernelIdeal.Skeleton
import proofs.«146061_j43422119363005_2_alg».proof.Proof.Gen.KernelIdeal.Loops
import proofs.«146061_j43422119363005_2_alg».proof.Proof.Gen.KernelIdeal.Launch
import proofs.«146061_j43422119363005_2_alg».proof.Proof.Gen.KernelIdeal.Points
import proofs.«146061_j43422119363005_2_alg».proof.Proof.Gen.KernelIdeal.Frame
import proofs.«146061_j43422119363005_2_alg».proof.Proof.Gen.ReferenceIdeal
import proofs.«146061_j43422119363005_2_alg».proof.Proof.Gen.ReferenceIdeal.Run
import proofs.«146061_j43422119363005_2_alg».proof.Proof.Gen.ReferenceIdeal.Read
import proofs.«146061_j43422119363005_2_alg».proof.Proof.Gen.Pre_finite_inputs
import proofs.«146061_j43422119363005_2_alg».proof.Proof.KRun
import proofs.«146061_j43422119363005_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel's result array at what the host lines after the region leave, the reference's at
    its last operation's value; under the precondition the two are one function of the (agreeing) arguments. -/
theorem algebraic : Cert.algebraic_KernelIdeal_ReferenceIdeal := by
  intro m ρ m' ρ' hpre hagree
  refine ⟨fun c => Pipeline.afterTail₀ Cert.KernelIdeal.cfgs (Cert.KernelIdeal.Gen.dats (F := Ideal) m) 0 (Cert.KernelIdeal.Gen.V0 m)
      [Cert.KernelIdeal.Gen.hostOps1] c Cert.KernelIdeal.main_v26, Cert.Pool.K.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.Pool.K.result_eq m c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
